-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S2048x1x1024 : Shape := ⟨3, ![2048, 1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1x1024 : S_.BroadcastsInDim S2048x1x1024 (![] : Fin 0 → Fin S2048x1x1024.rank)
  reducesTo_S2048x1x1024_S_d0_1_2 : S2048x1x1024.ReducesTo [0, 1, 2] S_

variable [Facts]

def fn_part4 {F : FTy → Type} [FloatOps F] (main_arg14 : FVec F S1024 .f32) (main_arg15 : FVec F S2048x1x1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1x1024 .f32 := Host.absf main_arg15
  let main_cst_28 : FVec F S_ .f32 := constant S_ .f32 0x7F800000#32
  let main_v75 : FVec F S2048x1x1024 .f32 := broadcastInDim S2048x1x1024 ![] bcast_S_S2048x1x1024 main_cst_28
  let main_v76 : IVec S2048x1x1024 1 := cmpf .olt main_v74 main_v75
  let main_c_29 : IVec S_ 1 := constantI S_ 1 1#1
  let main_v77 : IVec S_ 1 := (fun x v => Host.reduce IntOp.andi x v reducesTo_S2048x1x1024_S_d0_1_2 h_S_) main_v76 main_c_29
  let main_v78 : IVec S_ 1 := andi main_v73 main_v77
  main_v78

def fn_part3 {F : FTy → Type} [FloatOps F] (main_arg11 : FVec F S1024 .f32) (main_arg12 : FVec F S1024 .f32) (main_arg13 : FVec F S1024 .f32) (main_arg14 : FVec F S1024 .f32) (main_arg15 : FVec F S2048x1x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2048x1024 .f32) (main_arg1 : FVec F S2048x1024 .f32) (main_arg2 : FVec F S2048x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S2048x1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S2048x1x1024 : Shape := ⟨3, ![2048, 1, 1024]⟩
abbrev S4096 : Shape := ⟨1, ![4096]⟩
abbrev S1x4096 : Shape := ⟨2, ![1, 4096]⟩
abbrev S256x1024 : Shape := ⟨2, ![256, 1024]⟩
abbrev S1x1024 : Shape := ⟨2, ![1, 1024]⟩

abbrev nBuf : Space → Nat
  | .hbm => 23
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1x1024, .f32⟩
  | .hbm, ⟨16, _⟩ => ⟨S4096, .f32⟩
  | .hbm, ⟨17, _⟩ => ⟨S1x4096, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1x1024, .f32⟩
  | .hbm, ⟨22, _⟩ => ⟨S2048x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x4096, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v4 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  concatenates_S1024_S1024_S1024_S1024_S4096_d0 : Shape.Concatenates [S1024, S1024, S1024, S1024] S4096 0
  shapeCasts_S4096_S1x4096 : S4096.ShapeCasts S1x4096
  shapeCasts_S2048x1x1024_S2048x1024 : S2048x1x1024.ShapeCasts S2048x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S1x4096_o0_0_S1x1024 : S1x4096.Slices ![0, 0] S1x1024
  slices_S1x4096_o0_1024_S1x1024 : S1x4096.Slices ![0, 1024] S1x1024
  slices_S1x4096_o0_2048_S1x1024 : S1x4096.Slices ![0, 2048] S1x1024
  slices_S1x4096_o0_3072_S1x1024 : S1x4096.Slices ![0, 3072] S1x1024
  inb_S1024x1024_S1024x1024_0_0 : ∀ a, (![0, 0] : Fin 2 → Nat) a + S1024x1024.size a ≤ S1024x1024.size a
  h_S1024x1024 : 0 < S1024x1024.numel
  broadcasts_S1x1024_S256x1024 : S1x1024.Broadcasts S256x1024
  shapeCasts_S256x1024_S256x1024 : S256x1024.ShapeCasts S256x1024
  shapeCasts_S2048x1024_S2048x1x1024 : S2048x1024.ShapeCasts S2048x1x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .f32 = 32 ∨ (Rect.block (s := S1024x1024) S1024x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .f32 = 32 ∨ (Rect.block (s := S1024x1024) S1024x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4096.size a ≤ S1x4096.size a
  hwx0_12 : ∀ i : grid0.Coords, EltTy.bits .f32 = 32 ∨ (Rect.block (s := S1x4096) S1x4096.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S2048x1024.size a
  hwx0_13 : ∀ i : grid0.Coords, EltTy.bits .f32 = 32 ∨ (Rect.block (s := S2048x1024) S256x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S2048x1024.size a
  hwx0_14 : ∀ i : grid0.Coords, EltTy.bits .f32 = 32 ∨ (Rect.block (s := S2048x1024) S256x1024.size (cc0_transform_14 i) (hinb0_14 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3_0) S256x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_1) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S2048x1x1024 : Shape := ⟨3, ![2048, 1, 1024]⟩
abbrev S1024x4096 : Shape := ⟨2, ![1024, 4096]⟩
abbrev S4096 : Shape := ⟨1, ![4096]⟩
abbrev S2048x4096 : Shape := ⟨2, ![2048, 4096]⟩
abbrev S1x4096 : Shape := ⟨2, ![1, 4096]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1x1024, .f32⟩
  | .hbm, ⟨16, _⟩ => ⟨S1024x4096, .f32⟩
  | .hbm, ⟨17, _⟩ => ⟨S1024x4096, .f32⟩
  | .hbm, ⟨18, _⟩ => ⟨S4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S1x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1x1024, .f32⟩
  | .hbm, ⟨60, _⟩ => ⟨S2048x1x1024, .f32⟩
  | .hbm, ⟨61, _⟩ => ⟨S2048x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  bcast_S2048x1024_S2048x1x1024_0_2 : S2048x1024.BroadcastsInDim S2048x1x1024 (![0, 2] : Fin 2 → Fin S2048x1x1024.rank)
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.BitsHost.lean ====
/-
  The host side of the kernel's program: three host lines run before the one pipelined region (the four
  biases laid end to end, that row given a leading unit axis, the mask's unit middle axis dropped) and two after
  it (each result given a unit middle axis).  Stated here: what every buffer holds when the region is entered,
  that the program is those lines around the region, that the later lines touch no array the pipeline stages,
  that a buffer no host line writes is found as it was launched, and that an input window's staging buffer
  holds the window's block of its array at every grid point.
-/
import proofs.«169139_j23922967838797_2_alg».proof.Proof.Gen.Kernel.Launch
import proofs.«169139_j23922967838797_2_alg».proof.Proof.Gen.Kernel.Skeleton
import proofs.«169139_j23922967838797_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents after the three host lines
    before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first three host lines, the region, and its last two host lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes only its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- A buffer that none of the three earlier lines writes — anything but the joined biases, their row, and the
    flattened mask — is found by the region as it was launched. -/
theorem V_of_ne (c : Dev nD) (b : Ref sig .tc) (h0 : main_v0 ≠ b) (h1 : main_v1 ≠ b) (h2 : main_v2 ≠ b) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.reshape_writes, Finset.mem_singleton]
    exact ⟨StableHlo.devRef_ne_of_ne h0.symm, StableHlo.devRef_ne_of_ne h1.symm, StableHlo.devRef_ne_of_ne h2.symm⟩))

/-- A buffer that no window stages and neither later line writes ends as the region found it. -/
theorem W_of_ne (dats : (p : Fin 1) → (c : Dev nD) → Dat τ (Elt F) Unit ℕ (UR sig nD τ) ℕ (cfgs p) c) (c : Dev nD) (b : Ref sig .tc)
    (h4 : main_v4 ≠ b) (h5 : main_v5 ≠ b) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h4.symm, StableHlo.devRef_ne_of_ne h5.symm⟩)),
    Pipeline.withArrays_of_ne _ c (V0 m c) _ b hw]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, fetched there or not, for any proof
    data whose array is the region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every grid point, fetched there or not, for any proof
    data whose array is the region-entry contents and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every grid point, fetched there or not, for any proof
    data whose array is the region-entry contents and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds the window's block at every grid point, fetched there or not, for any proof
    data whose array is the region-entry contents and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds the window's block at every grid point, fetched there or not, for any proof
    data whose array is the region-entry contents and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds the window's block at every grid point, fetched there or not, for any proof
    data whose array is the region-entry contents and whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds the window's block at every grid point, fetched there or not, for any proof
    data whose array is the region-entry contents and whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds the window's block at every grid point, fetched there or not, for any proof
    data whose array is the region-entry contents and whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds the window's block at every grid point, fetched there or not, for any proof
    data whose array is the region-entry contents and whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds the window's block at every grid point, fetched there or not, for any proof
    data whose array is the region-entry contents and whose body leaves the block in place. -/
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds the window's block at every grid point, fetched there or not, for any proof
    data whose array is the region-entry contents and whose body leaves the block in place. -/
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds the window's block at every grid point, fetched there or not, for any proof
    data whose array is the region-entry contents and whose body leaves the block in place. -/
theorem before_in11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds the window's block at every grid point, fetched there or not, for any proof
    data whose array is the region-entry contents and whose body leaves the block in place. -/
theorem before_in12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.BitsPay.lean ====
/-
  What the kernel body stores, as functions of the thirteen blocks it loads: `x0`, `x1` the input's and the
  hidden state's 256 rows, `x2` the old cell state's, `x3` the mask's; `w4`, `w5`, `w6`, `w7` the input weights
  of the forget gate, the input gate, the output gate and the candidate; `w8` … `w11` their recurrent
  weights in the same order; `b12` the four biases laid end to end in one row of 4096.
-/
import proofs.«169139_j23922967838797_2_alg».proof.Proof.Gen.Kernel.Skeleton

noncomputable section

namespace Cert.Kernel.Hand

open Idealize.ShloMosaic Cert.Kernel Cert.Kernel.Gen

variable {F : FTy → Type} [FloatOps F]

/-- The new cell state of the block: what the body stores into the second result's block. -/
def cPay (x0 x1 x2 : Vec F S256x1024 .f32) (w4 w5 w7 w8 w9 w11 : Vec F S1024x1024 .f32) (b12 : Vec F S1x4096 .f32) :
    FVec F S256x1024 .f32 :=
  k0_pay1 (k0_pay3 x0) (k0_pay4 x1) (k0_pay7 b12) (k0_pay8 x0 x1 b12 w4 w8) (k0_pay9 x0 x1 b12 w5 w9) w7 w11 x2

/-- The masked new hidden state of the block: what the body stores into the first result's block. -/
def hPay (x0 x1 x2 x3 : Vec F S256x1024 .f32) (w4 w5 w6 w7 w8 w9 w10 w11 : Vec F S1024x1024 .f32) (b12 : Vec F S1x4096 .f32) :
    FVec F S256x1024 .f32 :=
  k0_pay2 (k0_pay3 x0) (k0_pay4 x1) (k0_pay6 b12) (k0_pay7 b12) (k0_pay8 x0 x1 b12 w4 w8) (k0_pay9 x0 x1 b12 w5 w9)
    (k0_pay10 x0 x1 w6 w10) w7 w11 x2 x3

end Cert.Kernel.Hand

end
-- ==== Proof.BitsBody.lean ====
/-
  The kernel body on one grid point.  It loads thirteen staging buffers whole — four blocks of 256 rows (the
  input, the hidden state, the old cell state, the mask), eight weight matrices and the row of biases — and
  stores two blocks of 256 rows whole: the masked new hidden state and the new cell state.  (It also loads each
  output buffer just before overwriting it; nothing it stores depends on what it finds there.)  Stated here: what
  each output's staging buffer holds after the body, as a function of the thirteen input buffers' contents, and
  that the body, run on whole staging buffers, terminates without a fault leaving exactly that.
-/
import proofs.«169139_j23922967838797_2_alg».proof.Proof.BitsHost
import proofs.«169139_j23922967838797_2_alg».proof.Proof.BitsPay

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and every store goes through the whole of its buffer -/

/-- The whole of a block of 256 rows. -/
abbrev rA : Rect S256x1024 := Rect.unit (s := S256x1024) ![0, 0] S256x1024.size inb_S256x1024_S256x1024_0_0
/-- The whole of a weight matrix. -/
abbrev rW : Rect S1024x1024 := Rect.unit (s := S1024x1024) ![0, 0] S1024x1024.size inb_S1024x1024_S1024x1024_0_0
/-- The whole of the row of biases. -/
abbrev rB : Rect S1x4096 := Rect.unit (s := S1x4096) ![0, 0] S1x4096.size inb_S1x4096_S1x4096_0_0

/-! ## What the body leaves in each output's staging buffer -/

/-- The first result's buffer after the body: its one store, of the masked new hidden state computed from what the
    thirteen loads find. -/
def hBlk (x0 x1 x2 x3 : Vec F S256x1024 .f32) (w4 w5 w6 w7 w8 w9 w10 w11 : Vec F S1024x1024 .f32) (b12 : Vec F S1x4096 .f32) :
    Vec F S256x1024 .f32 :=
  View.canon [⟨rA, hPay (View.ld x0 rA) (View.ld x1 rA) (View.ld x2 rA) (View.ld x3 rA) (View.ld w4 rW) (View.ld w5 rW) (View.ld w6 rW)
    (View.ld w7 rW) (View.ld w8 rW) (View.ld w9 rW) (View.ld w10 rW) (View.ld w11 rW) (View.ld b12 rB)⟩]

/-- The second result's buffer after the body: its one store, of the new cell state. -/
def cBlk (x0 x1 x2 : Vec F S256x1024 .f32) (w4 w5 w7 w8 w9 w11 : Vec F S1024x1024 .f32) (b12 : Vec F S1x4096 .f32) :
    Vec F S256x1024 .f32 :=
  View.canon [⟨rA, cPay (View.ld x0 rA) (View.ld x1 rA) (View.ld x2 rA) (View.ld w4 rW) (View.ld w5 rW) (View.ld w7 rW)
    (View.ld w8 rW) (View.ld w9 rW) (View.ld w11 rW) (View.ld b12 rB)⟩]

/-- A store through the whole block covers the block. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging buffers — the thirteen inputs' at contents `x0` … `b12`, the two outputs' at
    anything — runs to the continuation holding the inputs' as they were, the first output's at `hBlk` and the
    second's at `cBlk` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole)
    (arg13 : Memref sig .tc .vmem S1x4096 .f32) (harg13 : arg13.IsWhole)
    (arg14 : Memref sig .tc .vmem S256x1024 .f32) (harg14 : arg14.IsWhole) (arg15 : Memref sig .tc .vmem S256x1024 .f32) (harg15 : arg15.IsWhole)
    (x0 x1 x2 x3 : Vec F S256x1024 .f32) (w4 w5 w6 w7 w8 w9 w10 w11 : Vec F S1024x1024 .f32) (b12 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w4 ∗ owns (c : Thread nD τ) arg6 fullShare w5
        ∗ owns (c : Thread nD τ) arg7 fullShare w6 ∗ owns (c : Thread nD τ) arg8 fullShare w7 ∗ owns (c : Thread nD τ) arg9 fullShare w8
        ∗ owns (c : Thread nD τ) arg10 fullShare w9 ∗ owns (c : Thread nD τ) arg11 fullShare w10 ∗ owns (c : Thread nD τ) arg12 fullShare w11
        ∗ owns (c : Thread nD τ) arg13 fullShare b12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w4 ∗ owns (c : Thread nD τ) arg6 fullShare w5
            ∗ owns (c : Thread nD τ) arg7 fullShare w6 ∗ owns (c : Thread nD τ) arg8 fullShare w7 ∗ owns (c : Thread nD τ) arg9 fullShare w8
            ∗ owns (c : Thread nD τ) arg10 fullShare w9 ∗ owns (c : Thread nD τ) arg11 fullShare w10 ∗ owns (c : Thread nD τ) arg12 fullShare w11
            ∗ owns (c : Thread nD τ) arg13 fullShare b12
            ∗ owns (c : Thread nD τ) arg14 fullShare (hBlk x0 x1 x2 x3 w4 w5 w6 w7 w8 w9 w10 w11 b12)
            ∗ owns (c : Thread nD τ) arg15 fullShare (cBlk x0 x1 x2 w4 w5 w7 w8 w9 w11 b12)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (coverA _)
  iexists _; isplitr
  swap; · iexact H14
  ipureintro
  try dsimp only
  exact View.read_writes_eq_canon _ _ _ (coverA _)

end Cert.Kernel.Hand

end
-- ==== Proof.BitsFrame.lean ====
/-
  The frame of the kernel's program: every weakly fair execution terminates without a fault and leaves the sixteen
  argument arrays as they were launched.  The proof data of the one pipelined region: each array as the region
  finds it; after the body at grid point `t` each input window's staging buffer still at its block, the first
  result's at the masked new hidden state of the point's blocks and the second's at their new cell state; nothing
  else owned, nothing owed.  The body obligation is the body's triple at the point's blocks; the run is the
  library's launch of a region with host lines before and after it.
-/
import proofs.«169139_j23922967838797_2_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
    | ⟨14, _⟩ => cBlk (iblk m c 0 t) (iblk m c 1 t) (iblk m c 2 t) (iblk m c 4 t) (iblk m c 5 t) (iblk m c 7 t)
        (iblk m c 8 t) (iblk m c 9 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t
    = hBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) := by dsimp only [dats]
theorem after14 (c : Dev nD) (t : Fin cfg0.N) : (dats m 0 c).after 14 t
    = cBlk (iblk m c 0 t) (iblk m c 1 t) (iblk m c 2 t) (iblk m c 4 t) (iblk m c 5 t) (iblk m c 7 t)
        (iblk m c 8 t) (iblk m c 9 t) (iblk m c 11 t) (iblk m c 12 t) := by dsimp only [dats]

/-- Each input's current staging buffer holds its block at every point, fetched there or not. -/
theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d
theorem before7 (c : Dev nD) (t : Fin cfg0.N) (d) : (dats m 0 c).before 7 t d = iblk m c 7 t := before_in7 m (dats m 0 c) (A_eq m c 7) (after7 m c) t d
theorem before8 (c : Dev nD) (t : Fin cfg0.N) (d) : (dats m 0 c).before 8 t d = iblk m c 8 t := before_in8 m (dats m 0 c) (A_eq m c 8) (after8 m c) t d
theorem before9 (c : Dev nD) (t : Fin cfg0.N) (d) : (dats m 0 c).before 9 t d = iblk m c 9 t := before_in9 m (dats m 0 c) (A_eq m c 9) (after9 m c) t d
theorem before10 (c : Dev nD) (t : Fin cfg0.N) (d) : (dats m 0 c).before 10 t d = iblk m c 10 t := before_in10 m (dats m 0 c) (A_eq m c 10) (after10 m c) t d
theorem before11 (c : Dev nD) (t : Fin cfg0.N) (d) : (dats m 0 c).before 11 t d = iblk m c 11 t := before_in11 m (dats m 0 c) (A_eq m c 11) (after11 m c) t d
theorem before12 (c : Dev nD) (t : Fin cfg0.N) (d) : (dats m 0 c).before 12 t d = iblk m c 12 t := before_in12 m (dats m 0 c) (A_eq m c 12) (after12 m c) t d

/-! ## The body obligation, at a generic point -/

/-- What the body is called with at point `t`: the invariant, what is owed, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data says and every other buffer as the two later host lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In a final state of the run the sixteen argument arrays are as launched.  An argument a window stages is an
    input's array, which the pipeline never writes; the four biases and the mask bypass the pipeline, and no host
    line writes them. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨
    ((h c).1 0).trans (((dats m 0 c).arrAt_in 0 rfl _).trans ((A_eq m c 0).trans (V_of_ne m c main_arg0 (by decide) (by decide) (by decide)))),
    ((h c).1 1).trans (((dats m 0 c).arrAt_in 1 rfl _).trans ((A_eq m c 1).trans (V_of_ne m c main_arg1 (by decide) (by decide) (by decide)))),
    ((h c).1 2).trans (((dats m 0 c).arrAt_in 2 rfl _).trans ((A_eq m c 2).trans (V_of_ne m c main_arg2 (by decide) (by decide) (by decide)))),
    ((h c).1 5).trans (((dats m 0 c).arrAt_in 5 rfl _).trans ((A_eq m c 5).trans (V_of_ne m c main_arg3 (by decide) (by decide) (by decide)))),
    ((h c).1 4).trans (((dats m 0 c).arrAt_in 4 rfl _).trans ((A_eq m c 4).trans (V_of_ne m c main_arg4 (by decide) (by decide) (by decide)))),
    ((h c).1 6).trans (((dats m 0 c).arrAt_in 6 rfl _).trans ((A_eq m c 6).trans (V_of_ne m c main_arg5 (by decide) (by decide) (by decide)))),
    ((h c).1 7).trans (((dats m 0 c).arrAt_in 7 rfl _).trans ((A_eq m c 7).trans (V_of_ne m c main_arg6 (by decide) (by decide) (by decide)))),
    ((h c).1 9).trans (((dats m 0 c).arrAt_in 9 rfl _).trans ((A_eq m c 9).trans (V_of_ne m c main_arg7 (by decide) (by decide) (by decide)))),
    ((h c).1 8).trans (((dats m 0 c).arrAt_in 8 rfl _).trans ((A_eq m c 8).trans (V_of_ne m c main_arg8 (by decide) (by decide) (by decide)))),
    ((h c).1 10).trans (((dats m 0 c).arrAt_in 10 rfl _).trans ((A_eq m c 10).trans (V_of_ne m c main_arg9 (by decide) (by decide) (by decide)))),
    ((h c).1 11).trans (((dats m 0 c).arrAt_in 11 rfl _).trans ((A_eq m c 11).trans (V_of_ne m c main_arg10 (by decide) (by decide) (by decide)))),
    ((h c).2 main_arg11 (Pipeline.mem_restRefs_of main_arg11 (by decide) (by decide))).trans
      ((W_of_ne m (dats m) c main_arg11 (by decide) (by decide) (by decide)).trans (V_of_ne m c main_arg11 (by decide) (by decide) (by decide))),
    ((h c).2 main_arg12 (Pipeline.mem_restRefs_of main_arg12 (by decide) (by decide))).trans
      ((W_of_ne m (dats m) c main_arg12 (by decide) (by decide) (by decide)).trans (V_of_ne m c main_arg12 (by decide) (by decide) (by decide))),
    ((h c).2 main_arg13 (Pipeline.mem_restRefs_of main_arg13 (by decide) (by decide))).trans
      ((W_of_ne m (dats m) c main_arg13 (by decide) (by decide) (by decide)).trans (V_of_ne m c main_arg13 (by decide) (by decide) (by decide))),
    ((h c).2 main_arg14 (Pipeline.mem_restRefs_of main_arg14 (by decide) (by decide))).trans
      ((W_of_ne m (dats m) c main_arg14 (by decide) (by decide) (by decide)).trans (V_of_ne m c main_arg14 (by decide) (by decide) (by decide))),
    ((h c).2 main_arg15 (Pipeline.mem_restRefs_of main_arg15 (by decide) (by decide))).trans
      ((W_of_ne m (dats m) c main_arg15 (by decide) (by decide) (by decide)).trans (V_of_ne m c main_arg15 (by decide) (by decide) (by decide)))⟩

/-- The frame: every weakly fair execution terminates without a fault and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept m r h c) (run_main m ρ)

end Cert.Kernel.Hand

end
-- ==== Proof.IdealHost.lean ====
/-
  The host side of the kernel's program: three host lines run before the one pipelined region (the four
  biases laid end to end, that row given a leading unit axis, the mask's unit middle axis dropped) and two after
  it (each result given a unit middle axis).  Stated here: what every buffer holds when the region is entered,
  that the program is those lines around the region, that the later lines touch no array the pipeline stages,
  that a buffer no host line writes is found as it was launched, and that an input window's staging buffer
  holds the window's block of its array at every grid point.
-/
import proofs.«169139_j23922967838797_2_alg».proof.Proof.Gen.KernelIdeal.Launch
import proofs.«169139_j23922967838797_2_alg».proof.Proof.Gen.KernelIdeal.Skeleton
import proofs.«169139_j23922967838797_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents after the three host lines
    before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first three host lines, the region, and its last two host lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes only its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- A buffer that none of the three earlier lines writes — anything but the joined biases, their row, and the
    flattened mask — is found by the region as it was launched. -/
theorem V_of_ne (c : Dev nD) (b : Ref sig .tc) (h0 : main_v0 ≠ b) (h1 : main_v1 ≠ b) (h2 : main_v2 ≠ b) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.reshape_writes, Finset.mem_singleton]
    exact ⟨StableHlo.devRef_ne_of_ne h0.symm, StableHlo.devRef_ne_of_ne h1.symm, StableHlo.devRef_ne_of_ne h2.symm⟩))

/-- A buffer that no window stages and neither later line writes ends as the region found it. -/
theorem W_of_ne (dats : (p : Fin 1) → (c : Dev nD) → Dat τ (Elt F) Unit ℕ (UR sig nD τ) ℕ (cfgs p) c) (c : Dev nD) (b : Ref sig .tc)
    (h4 : main_v4 ≠ b) (h5 : main_v5 ≠ b) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h4.symm, StableHlo.devRef_ne_of_ne h5.symm⟩)),
    Pipeline.withArrays_of_ne _ c (V0 m c) _ b hw]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, fetched there or not, for any proof
    data whose array is the region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every grid point, fetched there or not, for any proof
    data whose array is the region-entry contents and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every grid point, fetched there or not, for any proof
    data whose array is the region-entry contents and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds the window's block at every grid point, fetched there or not, for any proof
    data whose array is the region-entry contents and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds the window's block at every grid point, fetched there or not, for any proof
    data whose array is the region-entry contents and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds the window's block at every grid point, fetched there or not, for any proof
    data whose array is the region-entry contents and whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds the window's block at every grid point, fetched there or not, for any proof
    data whose array is the region-entry contents and whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds the window's block at every grid point, fetched there or not, for any proof
    data whose array is the region-entry contents and whose body leaves the block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds the window's block at every grid point, fetched there or not, for any proof
    data whose array is the region-entry contents and whose body leaves the block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds the window's block at every grid point, fetched there or not, for any proof
    data whose array is the region-entry contents and whose body leaves the block in place. -/
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds the window's block at every grid point, fetched there or not, for any proof
    data whose array is the region-entry contents and whose body leaves the block in place. -/
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds the window's block at every grid point, fetched there or not, for any proof
    data whose array is the region-entry contents and whose body leaves the block in place. -/
theorem before_in11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds the window's block at every grid point, fetched there or not, for any proof
    data whose array is the region-entry contents and whose body leaves the block in place. -/
theorem before_in12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.IdealPay.lean ====
/-
  What the kernel body stores, as functions of the thirteen blocks it loads: `x0`, `x1` the input's and the
  hidden state's 256 rows, `x2` the old cell state's, `x3` the mask's; `w4`, `w5`, `w6`, `w7` the input weights
  of the forget gate, the input gate, the output gate and the candidate; `w8` … `w11` their recurrent
  weights in the same order; `b12` the four biases laid end to end in one row of 4096.
-/
import proofs.«169139_j23922967838797_2_alg».proof.Proof.Gen.KernelIdeal.Skeleton

noncomputable section

namespace Cert.KernelIdeal.Hand

open Idealize.ShloMosaic Cert.KernelIdeal Cert.KernelIdeal.Gen

variable {F : FTy → Type} [FloatOps F]

/-- The new cell state of the block: what the body stores into the second result's block. -/
def cPay (x0 x1 x2 : Vec F S256x1024 .f32) (w4 w5 w7 w8 w9 w11 : Vec F S1024x1024 .f32) (b12 : Vec F S1x4096 .f32) :
    FVec F S256x1024 .f32 :=
  k0_pay1 (k0_pay3 x0) (k0_pay4 x1) (k0_pay7 b12) (k0_pay8 x0 x1 b12 w4 w8) (k0_pay9 x0 x1 b12 w5 w9) w7 w11 x2

/-- The masked new hidden state of the block: what the body stores into the first result's block. -/
def hPay (x0 x1 x2 x3 : Vec F S256x1024 .f32) (w4 w5 w6 w7 w8 w9 w10 w11 : Vec F S1024x1024 .f32) (b12 : Vec F S1x4096 .f32) :
    FVec F S256x1024 .f32 :=
  k0_pay2 (k0_pay3 x0) (k0_pay4 x1) (k0_pay6 b12) (k0_pay7 b12) (k0_pay8 x0 x1 b12 w4 w8) (k0_pay9 x0 x1 b12 w5 w9)
    (k0_pay10 x0 x1 w6 w10) w7 w11 x2 x3

end Cert.KernelIdeal.Hand

end
-- ==== Proof.IdealBody.lean ====
/-
  The kernel body on one grid point.  It loads thirteen staging buffers whole — four blocks of 256 rows (the
  input, the hidden state, the old cell state, the mask), eight weight matrices and the row of biases — and
  stores two blocks of 256 rows whole: the masked new hidden state and the new cell state.  (It also loads each
  output buffer just before overwriting it; nothing it stores depends on what it finds there.)  Stated here: what
  each output's staging buffer holds after the body, as a function of the thirteen input buffers' contents, and
  that the body, run on whole staging buffers, terminates without a fault leaving exactly that.
-/
import proofs.«169139_j23922967838797_2_alg».proof.Proof.IdealHost
import proofs.«169139_j23922967838797_2_alg».proof.Proof.IdealPay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and every store goes through the whole of its buffer -/

/-- The whole of a block of 256 rows. -/
abbrev rA : Rect S256x1024 := Rect.unit (s := S256x1024) ![0, 0] S256x1024.size inb_S256x1024_S256x1024_0_0
/-- The whole of a weight matrix. -/
abbrev rW : Rect S1024x1024 := Rect.unit (s := S1024x1024) ![0, 0] S1024x1024.size inb_S1024x1024_S1024x1024_0_0
/-- The whole of the row of biases. -/
abbrev rB : Rect S1x4096 := Rect.unit (s := S1x4096) ![0, 0] S1x4096.size inb_S1x4096_S1x4096_0_0

/-! ## What the body leaves in each output's staging buffer -/

/-- The first result's buffer after the body: its one store, of the masked new hidden state computed from what the
    thirteen loads find. -/
def hBlk (x0 x1 x2 x3 : Vec F S256x1024 .f32) (w4 w5 w6 w7 w8 w9 w10 w11 : Vec F S1024x1024 .f32) (b12 : Vec F S1x4096 .f32) :
    Vec F S256x1024 .f32 :=
  View.canon [⟨rA, hPay (View.ld x0 rA) (View.ld x1 rA) (View.ld x2 rA) (View.ld x3 rA) (View.ld w4 rW) (View.ld w5 rW) (View.ld w6 rW)
    (View.ld w7 rW) (View.ld w8 rW) (View.ld w9 rW) (View.ld w10 rW) (View.ld w11 rW) (View.ld b12 rB)⟩]

/-- The second result's buffer after the body: its one store, of the new cell state. -/
def cBlk (x0 x1 x2 : Vec F S256x1024 .f32) (w4 w5 w7 w8 w9 w11 : Vec F S1024x1024 .f32) (b12 : Vec F S1x4096 .f32) :
    Vec F S256x1024 .f32 :=
  View.canon [⟨rA, cPay (View.ld x0 rA) (View.ld x1 rA) (View.ld x2 rA) (View.ld w4 rW) (View.ld w5 rW) (View.ld w7 rW)
    (View.ld w8 rW) (View.ld w9 rW) (View.ld w11 rW) (View.ld b12 rB)⟩]

/-- A store through the whole block covers the block. -/
theorem coverA (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging buffers — the thirteen inputs' at contents `x0` … `b12`, the two outputs' at
    anything — runs to the continuation holding the inputs' as they were, the first output's at `hBlk` and the
    second's at `cBlk` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x1024 .f32) (harg10 : arg10.IsWhole)
    (arg11 : Memref sig .tc .vmem S1024x1024 .f32) (harg11 : arg11.IsWhole) (arg12 : Memref sig .tc .vmem S1024x1024 .f32) (harg12 : arg12.IsWhole)
    (arg13 : Memref sig .tc .vmem S1x4096 .f32) (harg13 : arg13.IsWhole)
    (arg14 : Memref sig .tc .vmem S256x1024 .f32) (harg14 : arg14.IsWhole) (arg15 : Memref sig .tc .vmem S256x1024 .f32) (harg15 : arg15.IsWhole)
    (x0 x1 x2 x3 : Vec F S256x1024 .f32) (w4 w5 w6 w7 w8 w9 w10 w11 : Vec F S1024x1024 .f32) (b12 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w4 ∗ owns (c : Thread nD τ) arg6 fullShare w5
        ∗ owns (c : Thread nD τ) arg7 fullShare w6 ∗ owns (c : Thread nD τ) arg8 fullShare w7 ∗ owns (c : Thread nD τ) arg9 fullShare w8
        ∗ owns (c : Thread nD τ) arg10 fullShare w9 ∗ owns (c : Thread nD τ) arg11 fullShare w10 ∗ owns (c : Thread nD τ) arg12 fullShare w11
        ∗ owns (c : Thread nD τ) arg13 fullShare b12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w4 ∗ owns (c : Thread nD τ) arg6 fullShare w5
            ∗ owns (c : Thread nD τ) arg7 fullShare w6 ∗ owns (c : Thread nD τ) arg8 fullShare w7 ∗ owns (c : Thread nD τ) arg9 fullShare w8
            ∗ owns (c : Thread nD τ) arg10 fullShare w9 ∗ owns (c : Thread nD τ) arg11 fullShare w10 ∗ owns (c : Thread nD τ) arg12 fullShare w11
            ∗ owns (c : Thread nD τ) arg13 fullShare b12
            ∗ owns (c : Thread nD τ) arg14 fullShare (hBlk x0 x1 x2 x3 w4 w5 w6 w7 w8 w9 w10 w11 b12)
            ∗ owns (c : Thread nD τ) arg15 fullShare (cBlk x0 x1 x2 w4 w5 w7 w8 w9 w11 b12)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (coverA _)
  iexists _; isplitr
  swap; · iexact H14
  ipureintro
  try dsimp only
  exact View.read_writes_eq_canon _ _ _ (coverA _)

end Cert.KernelIdeal.Hand

end
-- ==== Proof.IdealFrame.lean ====
/-
  The frame of the kernel's program: every weakly fair execution terminates without a fault and leaves the sixteen
  argument arrays as they were launched.  The proof data of the one pipelined region: each array as the region
  finds it; after the body at grid point `t` each input window's staging buffer still at its block, the first
  result's at the masked new hidden state of the point's blocks and the second's at their new cell state; nothing
  else owned, nothing owed.  The body obligation is the body's triple at the point's blocks; the run is the
  library's launch of a region with host lines before and after it.
-/
import proofs.«169139_j23922967838797_2_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
    | ⟨14, _⟩ => cBlk (iblk m c 0 t) (iblk m c 1 t) (iblk m c 2 t) (iblk m c 4 t) (iblk m c 5 t) (iblk m c 7 t)
        (iblk m c 8 t) (iblk m c 9 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t
    = hBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) := by dsimp only [dats]
theorem after14 (c : Dev nD) (t : Fin cfg0.N) : (dats m 0 c).after 14 t
    = cBlk (iblk m c 0 t) (iblk m c 1 t) (iblk m c 2 t) (iblk m c 4 t) (iblk m c 5 t) (iblk m c 7 t)
        (iblk m c 8 t) (iblk m c 9 t) (iblk m c 11 t) (iblk m c 12 t) := by dsimp only [dats]

/-- Each input's current staging buffer holds its block at every point, fetched there or not. -/
theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d
theorem before7 (c : Dev nD) (t : Fin cfg0.N) (d) : (dats m 0 c).before 7 t d = iblk m c 7 t := before_in7 m (dats m 0 c) (A_eq m c 7) (after7 m c) t d
theorem before8 (c : Dev nD) (t : Fin cfg0.N) (d) : (dats m 0 c).before 8 t d = iblk m c 8 t := before_in8 m (dats m 0 c) (A_eq m c 8) (after8 m c) t d
theorem before9 (c : Dev nD) (t : Fin cfg0.N) (d) : (dats m 0 c).before 9 t d = iblk m c 9 t := before_in9 m (dats m 0 c) (A_eq m c 9) (after9 m c) t d
theorem before10 (c : Dev nD) (t : Fin cfg0.N) (d) : (dats m 0 c).before 10 t d = iblk m c 10 t := before_in10 m (dats m 0 c) (A_eq m c 10) (after10 m c) t d
theorem before11 (c : Dev nD) (t : Fin cfg0.N) (d) : (dats m 0 c).before 11 t d = iblk m c 11 t := before_in11 m (dats m 0 c) (A_eq m c 11) (after11 m c) t d
theorem before12 (c : Dev nD) (t : Fin cfg0.N) (d) : (dats m 0 c).before 12 t d = iblk m c 12 t := before_in12 m (dats m 0 c) (A_eq m c 12) (after12 m c) t d

/-! ## The body obligation, at a generic point -/

/-- What the body is called with at point `t`: the invariant, what is owed, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data says and every other buffer as the two later host lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In a final state of the run the sixteen argument arrays are as launched.  An argument a window stages is an
    input's array, which the pipeline never writes; the four biases and the mask bypass the pipeline, and no host
    line writes them. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨
    ((h c).1 0).trans (((dats m 0 c).arrAt_in 0 rfl _).trans ((A_eq m c 0).trans (V_of_ne m c main_arg0 (by decide) (by decide) (by decide)))),
    ((h c).1 1).trans (((dats m 0 c).arrAt_in 1 rfl _).trans ((A_eq m c 1).trans (V_of_ne m c main_arg1 (by decide) (by decide) (by decide)))),
    ((h c).1 2).trans (((dats m 0 c).arrAt_in 2 rfl _).trans ((A_eq m c 2).trans (V_of_ne m c main_arg2 (by decide) (by decide) (by decide)))),
    ((h c).1 5).trans (((dats m 0 c).arrAt_in 5 rfl _).trans ((A_eq m c 5).trans (V_of_ne m c main_arg3 (by decide) (by decide) (by decide)))),
    ((h c).1 4).trans (((dats m 0 c).arrAt_in 4 rfl _).trans ((A_eq m c 4).trans (V_of_ne m c main_arg4 (by decide) (by decide) (by decide)))),
    ((h c).1 6).trans (((dats m 0 c).arrAt_in 6 rfl _).trans ((A_eq m c 6).trans (V_of_ne m c main_arg5 (by decide) (by decide) (by decide)))),
    ((h c).1 7).trans (((dats m 0 c).arrAt_in 7 rfl _).trans ((A_eq m c 7).trans (V_of_ne m c main_arg6 (by decide) (by decide) (by decide)))),
    ((h c).1 9).trans (((dats m 0 c).arrAt_in 9 rfl _).trans ((A_eq m c 9).trans (V_of_ne m c main_arg7 (by decide) (by decide) (by decide)))),
    ((h c).1 8).trans (((dats m 0 c).arrAt_in 8 rfl _).trans ((A_eq m c 8).trans (V_of_ne m c main_arg8 (by decide) (by decide) (by decide)))),
    ((h c).1 10).trans (((dats m 0 c).arrAt_in 10 rfl _).trans ((A_eq m c 10).trans (V_of_ne m c main_arg9 (by decide) (by decide) (by decide)))),
    ((h c).1 11).trans (((dats m 0 c).arrAt_in 11 rfl _).trans ((A_eq m c 11).trans (V_of_ne m c main_arg10 (by decide) (by decide) (by decide)))),
    ((h c).2 main_arg11 (Pipeline.mem_restRefs_of main_arg11 (by decide) (by decide))).trans
      ((W_of_ne m (dats m) c main_arg11 (by decide) (by decide) (by decide)).trans (V_of_ne m c main_arg11 (by decide) (by decide) (by decide))),
    ((h c).2 main_arg12 (Pipeline.mem_restRefs_of main_arg12 (by decide) (by decide))).trans
      ((W_of_ne m (dats m) c main_arg12 (by decide) (by decide) (by decide)).trans (V_of_ne m c main_arg12 (by decide) (by decide) (by decide))),
    ((h c).2 main_arg13 (Pipeline.mem_restRefs_of main_arg13 (by decide) (by decide))).trans
      ((W_of_ne m (dats m) c main_arg13 (by decide) (by decide) (by decide)).trans (V_of_ne m c main_arg13 (by decide) (by decide) (by decide))),
    ((h c).2 main_arg14 (Pipeline.mem_restRefs_of main_arg14 (by decide) (by decide))).trans
      ((W_of_ne m (dats m) c main_arg14 (by decide) (by decide) (by decide)).trans (V_of_ne m c main_arg14 (by decide) (by decide) (by decide))),
    ((h c).2 main_arg15 (Pipeline.mem_restRefs_of main_arg15 (by decide) (by decide))).trans
      ((W_of_ne m (dats m) c main_arg15 (by decide) (by decide) (by decide)).trans (V_of_ne m c main_arg15 (by decide) (by decide) (by decide)))⟩

/-- The frame: every weakly fair execution terminates without a fault and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept m r h c) (run_main m ρ)

end Cert.KernelIdeal.Hand

end
-- ==== Proof.Spec.lean ====
/-
  The mathematics both programs compute: one step of an LSTM cell over a batch of 2048 rows and 1024 hidden
  units, on the extended reals.  For a gate with input weights W, recurrent weights U and bias b the
  pre-activation at row r, unit j is
      (sum over k of x[r,k] * W[k,j]) + (sum over k of h[r,k] * U[k,j]) + b[j].
  With f, i, o the logistic function of the forget, input and output gates' pre-activations and g the
  hyperbolic tangent of the candidate's, the new cell state is  c' = c * f + i * g  and the new hidden state
  is  (o * tanh c') * mask, the mask a pre-scaled dropout mask of shape [2048, 1, 1024].  Both results are
  returned with a unit middle axis.
  The row products and the gate formulas are stated for any number of rows, so that the same terms describe a
  block of 256 rows and the whole batch.
-/
import Idealize.ShloMosaic.PureOps.Ideal
import Idealize.ShloMosaic.Lib.ValueIdx

noncomputable section

namespace Cert.LstmSpec

open Idealize.ShloMosaic Idealize.ShloMosaic.ValueIdx

/-- Activations: 2048 rows of 1024 units. -/
abbrev Act : Shape := ⟨2, ![2048, 1024]⟩
/-- A weight matrix: 1024 by 1024, contracted along its first axis. -/
abbrev Wgt : Shape := ⟨2, ![1024, 1024]⟩
/-- A bias vector. -/
abbrev Bia : Shape := ⟨1, ![1024]⟩
/-- A result, and the dropout mask: a unit axis between rows and units. -/
abbrev Res : Shape := ⟨3, ![2048, 1, 1024]⟩

/-- Row `r` of `x` against column `j` of `W`: the sum over the 1024 inner positions. -/
def dot {n : Nat} (x : (⟨2, ![n, 1024]⟩ : Shape).Idx → EReal) (W : Wgt.Idx → EReal) (r : Fin n) (j : Fin 1024) : EReal :=
  ∑ k : Fin 1024, x (ix2 r k) * W (ix2 k j)

/-- A gate's pre-activation at row `r`, unit `j`, given the bias entry `bj` of that unit: the input's row
    against `W`, plus the hidden state's row against `U`, plus the bias — grouped in that order. -/
def pre {n : Nat} (x h : (⟨2, ![n, 1024]⟩ : Shape).Idx → EReal) (W U : Wgt.Idx → EReal) (bj : EReal)
    (r : Fin n) (j : Fin 1024) : EReal :=
  (dot x W r j + dot h U r j) + bj

/-- The new cell state from the old one `c` and the pre-activations of the forget gate, the input gate and the
    candidate. -/
def cellOf (c f i g : EReal) : EReal := c * Ideal.logistic f + Ideal.logistic i * Ideal.tanh g

/-- The new hidden state, before the mask, from the output gate's pre-activation and the new cell state. -/
def hiddenOf (o c' : EReal) : EReal := Ideal.logistic o * Ideal.tanh c'

/-- The sixteen argument arrays, in the order both programs take them. -/
structure Args where
  x : Act.Idx → EReal
  h : Act.Idx → EReal
  c : Act.Idx → EReal
  wi : Wgt.Idx → EReal
  wf : Wgt.Idx → EReal
  wo : Wgt.Idx → EReal
  wc : Wgt.Idx → EReal
  ui : Wgt.Idx → EReal
  uf : Wgt.Idx → EReal
  uo : Wgt.Idx → EReal
  uc : Wgt.Idx → EReal
  b1 : Bia.Idx → EReal
  b2 : Bia.Idx → EReal
  b3 : Bia.Idx → EReal
  b4 : Bia.Idx → EReal
  mask : Res.Idx → EReal

/-- The new cell state at row `r`, unit `j`: forget gate on the first bias, input gate on the second, candidate
    on the fourth. -/
def cell (a : Args) (r : Fin 2048) (j : Fin 1024) : EReal :=
  cellOf (a.c (ix2 r j)) (pre a.x a.h a.wf a.uf (a.b1 (ix1 j)) r j) (pre a.x a.h a.wi a.ui (a.b2 (ix1 j)) r j)
    (pre a.x a.h a.wc a.uc (a.b4 (ix1 j)) r j)

/-- The new hidden state at row `r`, unit `j`, before the mask: output gate on the third bias. -/
def hidden (a : Args) (r : Fin 2048) (j : Fin 1024) : EReal :=
  hiddenOf (pre a.x a.h a.wo a.uo (a.b3 (ix1 j)) r j) (cell a r j)

/-- The first result: the masked hidden state, with its unit middle axis. -/
def hOut (a : Args) : Res.Idx → EReal := fun i => hidden a (i 0) (i 2) * a.mask i

/-- The second result: the cell state, with its unit middle axis. -/
def cOut (a : Args) : Res.Idx → EReal := fun i => cell a (i 0) (i 2)

theorem hOut_apply (a : Args) (r : Fin 2048) (u : Fin 1) (j : Fin 1024) :
    hOut a (ix3 r u j) = hidden a r j * a.mask (ix3 r u j) := rfl

theorem cOut_apply (a : Args) (r : Fin 2048) (u : Fin 1) (j : Fin 1024) :
    cOut a (ix3 r u j) = cell a r j := rfl

end Cert.LstmSpec

end
-- ==== Proof.IdealPayAt.lean ====
/-
  The kernel body's arithmetic read at an index.  At the extended reals every operation of the body is exact and
  the roundings to the narrower format are the identity, so each of the two stored blocks, read at row p and
  unit q, is the specification's gate formula of the thirteen loaded blocks: a gate's pre-activation is the
  input row against the input weights' column, plus the hidden row against the recurrent weights' column, plus
  the entry of the bias row at the gate's offset (0, 1024, 2048, 3072) plus q.
-/
import proofs.«169139_j23922967838797_2_alg».proof.Proof.IdealPay
import proofs.«169139_j23922967838797_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## The matrix product at an index -/

/-- The left operand of the product at result index `i` and contraction index `k` is read in row `i 0`. -/
theorem mm_lhs_0 (i : S256x1024.Idx) (k : dot_S256x1024_S1024x1024_S256x1024_1_0_0_1_n_n.contr.Idx) :
    (dot_S256x1024_S1024x1024_S256x1024_1_0_0_1_n_n.lhsIdx i k 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- … and in the column the contraction index names. -/
theorem mm_lhs_1 (i : S256x1024.Idx) (k : dot_S256x1024_S1024x1024_S256x1024_1_0_0_1_n_n.contr.Idx) :
    (dot_S256x1024_S1024x1024_S256x1024_1_0_0_1_n_n.lhsIdx i k 1).val = (k ⟨0, by decide⟩).val :=
  dot_S256x1024_S1024x1024_S256x1024_1_0_0_1_n_n.lhsIdx_val_of_single rfl i k

/-- The right operand is read in the row the contraction index names … -/
theorem mm_rhs_0 (i : S256x1024.Idx) (k : dot_S256x1024_S1024x1024_S256x1024_1_0_0_1_n_n.contr.Idx) :
    (dot_S256x1024_S1024x1024_S256x1024_1_0_0_1_n_n.rhsIdx i k 0).val = (k ⟨0, by decide⟩).val :=
  dot_S256x1024_S1024x1024_S256x1024_1_0_0_1_n_n.rhsIdx_val_of_single rfl i k

/-- … and in column `i 1`. -/
theorem mm_rhs_1 (i : S256x1024.Idx) (k : dot_S256x1024_S1024x1024_S256x1024_1_0_0_1_n_n.contr.Idx) :
    (dot_S256x1024_S1024x1024_S256x1024_1_0_0_1_n_n.rhsIdx i k 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The body's matrix product into the zero accumulator, read at row `p`, unit `q`: the sum over the 1024 inner
    positions of the left operand's row `p` times the right operand's column `q`. -/
theorem mm_apply (x : FVec Ideal S256x1024 .bf16) (w : FVec Ideal S1024x1024 .bf16) (p : Fin 256) (q : Fin 1024) :
    matmul dot_S256x1024_S1024x1024_S256x1024_1_0_0_1_n_n none x w (constant (F := Ideal) S256x1024 .f32 0x00000000#32) (ix2 p q)
      = ∑ k : Fin 1024, x (ix2 p k) * w (ix2 k q) := by
  refine (Ideal.matmul_constant_zero_apply dot_S256x1024_S1024x1024_S256x1024_1_0_0_1_n_n none x w (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- The same product of the operands the body rounds to the narrower format first (the identity here): the
    specification's row product. -/
theorem mm_trunc_apply (x : Vec Ideal S256x1024 .f32) (w : Vec Ideal S1024x1024 .f32) (p : Fin 256) (q : Fin 1024) :
    matmul dot_S256x1024_S1024x1024_S256x1024_1_0_0_1_n_n none (truncf .bf16 x bitsLt_bf16_f32) (truncf .bf16 w bitsLt_bf16_f32)
        (constant (F := Ideal) S256x1024 .f32 0x00000000#32) (ix2 p q)
      = Cert.LstmSpec.dot x w p q :=
  mm_apply (truncf .bf16 x bitsLt_bf16_f32) (truncf .bf16 w bitsLt_bf16_f32) p q

/-! ## A gate's bias at an index -/

/-- The bias row cut from column `o` on and broadcast over the 256 rows reads, at row `p`, unit `q`, the row's
    entry `o + q`. -/
theorem bias_apply (o : Nat) (b12 : Vec Ideal S1x4096 .f32) (h : S1x4096.Slices ![0, o] S1x1024) (p : Fin 256) (q : Fin 1024)
    (k : Fin 4096) (hk : k.val = o + q.val) :
    broadcastTo S256x1024 (extractStridedSlice S1x1024 ![0, o] (k0_pay5 (F := Ideal) b12) h) broadcasts_S1x1024_S256x1024 (ix2 p q)
      = b12 (ix2 (0 : Fin 1) k) := by
  refine (broadcastTo_1b_ab_apply _ _ p q).trans ?_
  refine (slice2_axis1_apply o _ h (0 : Fin 1) q k hk).trans ?_
  unfold k0_pay5
  exact congrFun (shapeCast_self b12 _) _

/-! ## The four gates' pre-activations at an index -/

/-- The forget gate: bias entries from 0. -/
theorem gate0_apply (x0 x1 : Vec Ideal S256x1024 .f32) (w4 w8 : Vec Ideal S1024x1024 .f32) (b12 : Vec Ideal S1x4096 .f32)
    (p : Fin 256) (q : Fin 1024) :
    k0_pay8 (F := Ideal) x0 x1 b12 w4 w8 (ix2 p q)
      = Cert.LstmSpec.pre x0 x1 w4 w8 (b12 (ix2 (0 : Fin 1) ⟨q.val, by omega⟩)) p q := by
  unfold k0_pay8 k0_pay3 k0_pay4
  exact congrArg₂ (· + ·) (congrArg₂ (· + ·) (mm_trunc_apply x0 w4 p q) (mm_trunc_apply x1 w8 p q))
    (bias_apply 0 b12 _ p q _ (Nat.zero_add _).symm)

/-- The input gate: bias entries from 1024. -/
theorem gate1_apply (x0 x1 : Vec Ideal S256x1024 .f32) (w5 w9 : Vec Ideal S1024x1024 .f32) (b12 : Vec Ideal S1x4096 .f32)
    (p : Fin 256) (q : Fin 1024) :
    k0_pay9 (F := Ideal) x0 x1 b12 w5 w9 (ix2 p q)
      = Cert.LstmSpec.pre x0 x1 w5 w9 (b12 (ix2 (0 : Fin 1) ⟨1024 + q.val, by omega⟩)) p q := by
  unfold k0_pay9 k0_pay3 k0_pay4
  exact congrArg₂ (· + ·) (congrArg₂ (· + ·) (mm_trunc_apply x0 w5 p q) (mm_trunc_apply x1 w9 p q))
    (bias_apply 1024 b12 _ p q _ rfl)

/-- The output gate: bias entries from 2048. The body adds the bias to the two products when it stores the hidden
    state. -/
theorem gate2_apply (x0 x1 : Vec Ideal S256x1024 .f32) (w6 w10 : Vec Ideal S1024x1024 .f32) (b12 : Vec Ideal S1x4096 .f32)
    (p : Fin 256) (q : Fin 1024) :
    addf (k0_pay10 (F := Ideal) x0 x1 w6 w10) (broadcastTo S256x1024 (k0_pay6 (F := Ideal) b12) broadcasts_S1x1024_S256x1024) (ix2 p q)
      = Cert.LstmSpec.pre x0 x1 w6 w10 (b12 (ix2 (0 : Fin 1) ⟨2048 + q.val, by omega⟩)) p q := by
  unfold k0_pay10 k0_pay6 k0_pay3 k0_pay4
  exact congrArg₂ (· + ·) (congrArg₂ (· + ·) (mm_trunc_apply x0 w6 p q) (mm_trunc_apply x1 w10 p q))
    (bias_apply 2048 b12 _ p q _ rfl)

/-- The candidate: bias entries from 3072. The body computes it when it stores the cell state. -/
theorem gate3_apply (x0 x1 : Vec Ideal S256x1024 .f32) (w7 w11 : Vec Ideal S1024x1024 .f32) (b12 : Vec Ideal S1x4096 .f32)
    (p : Fin 256) (q : Fin 1024) :
    addf (addf (matmul dot_S256x1024_S1024x1024_S256x1024_1_0_0_1_n_n none (k0_pay3 (F := Ideal) x0) (truncf .bf16 w7 bitsLt_bf16_f32)
                  (constant (F := Ideal) S256x1024 .f32 0x00000000#32))
               (matmul dot_S256x1024_S1024x1024_S256x1024_1_0_0_1_n_n none (k0_pay4 (F := Ideal) x1) (truncf .bf16 w11 bitsLt_bf16_f32)
                  (constant (F := Ideal) S256x1024 .f32 0x00000000#32)))
         (broadcastTo S256x1024 (k0_pay7 (F := Ideal) b12) broadcasts_S1x1024_S256x1024) (ix2 p q)
      = Cert.LstmSpec.pre x0 x1 w7 w11 (b12 (ix2 (0 : Fin 1) ⟨3072 + q.val, by omega⟩)) p q := by
  unfold k0_pay7 k0_pay3 k0_pay4
  exact congrArg₂ (· + ·) (congrArg₂ (· + ·) (mm_trunc_apply x0 w7 p q) (mm_trunc_apply x1 w11 p q))
    (bias_apply 3072 b12 _ p q _ rfl)

/-! ## The two stored values at an index -/

/-- The stored cell state at row `p`, unit `q` is the specification's cell formula of the old cell state there and
    the pre-activations of the forget gate, the input gate and the candidate. -/
theorem cPay_apply (x0 x1 x2 : Vec Ideal S256x1024 .f32) (w4 w5 w7 w8 w9 w11 : Vec Ideal S1024x1024 .f32)
    (b12 : Vec Ideal S1x4096 .f32) (p : Fin 256) (q : Fin 1024) :
    cPay (F := Ideal) x0 x1 x2 w4 w5 w7 w8 w9 w11 b12 (ix2 p q)
      = Cert.LstmSpec.cellOf (x2 (ix2 p q))
          (Cert.LstmSpec.pre x0 x1 w4 w8 (b12 (ix2 (0 : Fin 1) ⟨q.val, by omega⟩)) p q)
          (Cert.LstmSpec.pre x0 x1 w5 w9 (b12 (ix2 (0 : Fin 1) ⟨1024 + q.val, by omega⟩)) p q)
          (Cert.LstmSpec.pre x0 x1 w7 w11 (b12 (ix2 (0 : Fin 1) ⟨3072 + q.val, by omega⟩)) p q) := by
  unfold cPay k0_pay1
  exact congrArg₂ (· + ·)
    (congrArg (x2 (ix2 p q) * ·) (congrArg Ideal.logistic (gate0_apply x0 x1 w4 w8 b12 p q)))
    (congrArg₂ (· * ·) (congrArg Ideal.logistic (gate1_apply x0 x1 w5 w9 b12 p q))
      (congrArg Ideal.tanh (gate3_apply x0 x1 w7 w11 b12 p q)))

/-- The stored hidden state at row `p`, unit `q` is the specification's hidden formula of the output gate's
    pre-activation and the stored cell state there, times the mask there. -/
theorem hPay_apply (x0 x1 x2 x3 : Vec Ideal S256x1024 .f32) (w4 w5 w6 w7 w8 w9 w10 w11 : Vec Ideal S1024x1024 .f32)
    (b12 : Vec Ideal S1x4096 .f32) (p : Fin 256) (q : Fin 1024) :
    hPay (F := Ideal) x0 x1 x2 x3 w4 w5 w6 w7 w8 w9 w10 w11 b12 (ix2 p q)
      = Cert.LstmSpec.hiddenOf
          (Cert.LstmSpec.pre x0 x1 w6 w10 (b12 (ix2 (0 : Fin 1) ⟨2048 + q.val, by omega⟩)) p q)
          (cPay (F := Ideal) x0 x1 x2 w4 w5 w7 w8 w9 w11 b12 (ix2 p q)) * x3 (ix2 p q) := by
  unfold hPay k0_pay2
  exact congrArg₂ (· * ·)
    (congrArg (· * Ideal.tanh (cPay (F := Ideal) x0 x1 x2 w4 w5 w7 w8 w9 w11 b12 (ix2 p q)))
      (congrArg Ideal.logistic (gate2_apply x0 x1 w6 w10 b12 p q)))
    (congrFun (shapeCast_self x3 shapeCasts_S256x1024_S256x1024) (ix2 p q))

end Cert.KernelIdeal.Hand

end
-- ==== Proof.IdealLayout.lean ====
/-
  The host's layout steps around the kernel call, read at an index, for any element type: the four bias vectors
  laid end to end and given a leading unit axis read, at column 1024 k + q of the one row, the k-th vector at q;
  the mask with its unit middle axis dropped reads, at (r, j), the mask at (r, 0, j); a result given a unit
  middle axis reads, at (r, u, j), the flat result at (r, j).
-/
import proofs.«169139_j23922967838797_2_alg».proof.Proof.Gen.KernelIdeal
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-! ## The bias row -/

/-- Four vectors of 1024 laid end to end, read at the position `pre + q` inside the span of piece `k` (the pieces
    before it taking `pre` positions): piece `k` at `q`. -/
theorem concat4_apply {α : Type} (b1 b2 b3 b4 : S1024.Idx → α)
    (hc : Shape.Concatenates ([(⟨S1024, b1⟩ : (s : Shape) × (s.Idx → α)), ⟨S1024, b2⟩, ⟨S1024, b3⟩, ⟨S1024, b4⟩].map (·.1)) S4096 0)
    (k : Nat) (hk : k < 4) (x : S1024.Idx → α)
    (hx : [(⟨S1024, b1⟩ : (s : Shape) × (s.Idx → α)), ⟨S1024, b2⟩, ⟨S1024, b3⟩, ⟨S1024, b4⟩][k] = ⟨S1024, x⟩)
    (pre : Nat)
    (hpre : ((([(⟨S1024, b1⟩ : (s : Shape) × (s.Idx → α)), ⟨S1024, b2⟩, ⟨S1024, b3⟩, ⟨S1024, b4⟩].take k).map (·.1)).map
      fun s => if h : s.rank = S4096.rank then s.size ((0 : Fin S4096.rank).cast h.symm) else 0).sum = pre)
    (q : Fin 1024) (c : Fin 4096) (hcq : pre + q.val = c.val) :
    concatenate S4096 0 [⟨S1024, b1⟩, ⟨S1024, b2⟩, ⟨S1024, b3⟩, ⟨S1024, b4⟩] hc (ix1 c) = x (ix1 q) :=
  concatenate_apply_piece (0 : Fin S4096.rank) _ hc (ix1 c) k hk S1024 x hx rfl pre hpre (ix1 q)
    (fun b hb => absurd (Fin.ext (by have h1 : b.val < 1 := b.isLt; show b.val = 0; omega)) hb) hcq

/-- The four bias vectors laid end to end and given a leading unit axis. -/
def biasRow {α : Type} (b1 b2 b3 b4 : S1024.Idx → α) : S1x4096.Idx → α :=
  shapeCast S1x4096 (concatenate S4096 0 [⟨S1024, b1⟩, ⟨S1024, b2⟩, ⟨S1024, b3⟩, ⟨S1024, b4⟩] concatenates_S1024_S1024_S1024_S1024_S4096_d0) shapeCasts_S4096_S1x4096

/-- The bias row's columns from 0: the first vector. -/
theorem biasRow_apply0 {α : Type} (b1 b2 b3 b4 : S1024.Idx → α) (q : Fin 1024) :
    biasRow b1 b2 b3 b4 (ix2 (0 : Fin 1) ⟨q.val, by omega⟩) = b1 (ix1 q) := by
  unfold biasRow
  refine (shapeCast_a_1a_apply _ _ (0 : Fin 1) _).trans ?_
  exact concat4_apply b1 b2 b3 b4 _ 0 (by decide) b1 rfl 0 rfl q _ (Nat.zero_add _)

/-- The bias row's columns from 1024: the second vector. -/
theorem biasRow_apply1 {α : Type} (b1 b2 b3 b4 : S1024.Idx → α) (q : Fin 1024) :
    biasRow b1 b2 b3 b4 (ix2 (0 : Fin 1) ⟨1024 + q.val, by omega⟩) = b2 (ix1 q) := by
  unfold biasRow
  refine (shapeCast_a_1a_apply _ _ (0 : Fin 1) _).trans ?_
  exact concat4_apply b1 b2 b3 b4 _ 1 (by decide) b2 rfl 1024 rfl q _ rfl

/-- The bias row's columns from 2048: the third vector. -/
theorem biasRow_apply2 {α : Type} (b1 b2 b3 b4 : S1024.Idx → α) (q : Fin 1024) :
    biasRow b1 b2 b3 b4 (ix2 (0 : Fin 1) ⟨2048 + q.val, by omega⟩) = b3 (ix1 q) := by
  unfold biasRow
  refine (shapeCast_a_1a_apply _ _ (0 : Fin 1) _).trans ?_
  exact concat4_apply b1 b2 b3 b4 _ 2 (by decide) b3 rfl 2048 rfl q _ rfl

/-- The bias row's columns from 3072: the fourth vector. -/
theorem biasRow_apply3 {α : Type} (b1 b2 b3 b4 : S1024.Idx → α) (q : Fin 1024) :
    biasRow b1 b2 b3 b4 (ix2 (0 : Fin 1) ⟨3072 + q.val, by omega⟩) = b4 (ix1 q) := by
  unfold biasRow
  refine (shapeCast_a_1a_apply _ _ (0 : Fin 1) _).trans ?_
  exact concat4_apply b1 b2 b3 b4 _ 3 (by decide) b4 rfl 3072 rfl q _ rfl

/-! ## The unit middle axis dropped and put back -/

/-- The mask with its unit middle axis dropped reads, at `(r, j)`, the mask at `(r, 0, j)`. -/
theorem maskFlat_apply {α : Type} (mk : S2048x1x1024.Idx → α) (r : Fin 2048) (j : Fin 1024) :
    shapeCast S2048x1024 mk shapeCasts_S2048x1x1024_S2048x1024 (ix2 r j) = mk (ix3 r (0 : Fin 1) j) :=
  shapeCast_apply mk _ _ _ (by
    rw [Shape.rowMajor_val_three, Shape.rowMajor_val_two]
    show (r.val * 1 + 0) * 1024 + j.val = r.val * 1024 + j.val
    omega)

/-- A flat result given a unit middle axis reads, at `(r, u, j)`, the flat result at `(r, j)`, whatever the unit
    coordinate `u`. -/
theorem unflat_apply {α : Type} (y : S2048x1024.Idx → α) (r : Fin 2048) (u : Fin 1) (j : Fin 1024) :
    shapeCast S2048x1x1024 y shapeCasts_S2048x1024_S2048x1x1024 (ix3 r u j) = y (ix2 r j) :=
  shapeCast_apply y _ _ _ (by
    have hu : u.val = 0 := by omega
    rw [Shape.rowMajor_val_three, Shape.rowMajor_val_two]
    show r.val * 1024 + j.val = (r.val * 1 + u.val) * 1024 + j.val
    omega)

end Cert.KernelIdeal.Hand

end
-- ==== Proof.IdealValue.lean ====
/-
  What the kernel's program computes, on the extended reals: after the run the first result holds the masked new
  hidden state and the second the new cell state of the sixteen argument arrays, index by index.
  Grid point `t` handles rows 256 t … 256 t + 255: its blocks of the input, the hidden state, the old cell state
  and the mask are those rows of their arrays, the eight weight matrices and the row of biases are staged whole,
  and the two blocks it writes back are those rows of the results.  The eight points' blocks tile the 2048 rows,
  so each result array ends holding one function of the arguments.  The host lines only re-lay data: the row of
  biases read at column 1024 k + q is bias k at q, the flattened mask at (r, j) is the mask at (r, 0, j), and a
  result at (r, 0, j) is the pipeline's array at (r, j).
-/
import proofs.«169139_j23922967838797_2_alg».proof.Proof.IdealFrame
import proofs.«169139_j23922967838797_2_alg».proof.Proof.IdealPayAt
import proofs.«169139_j23922967838797_2_alg».proof.Proof.IdealLayout
import proofs.«169139_j23922967838797_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The sixteen argument arrays of core `c`, as launched. -/
def argsOf (c : Dev nD) : Cert.LstmSpec.Args where
  x := m ((c : Thread nD τ).loc main_arg0)
  h := m ((c : Thread nD τ).loc main_arg1)
  c := m ((c : Thread nD τ).loc main_arg2)
  wi := m ((c : Thread nD τ).loc main_arg3)
  wf := m ((c : Thread nD τ).loc main_arg4)
  wo := m ((c : Thread nD τ).loc main_arg5)
  wc := m ((c : Thread nD τ).loc main_arg6)
  ui := m ((c : Thread nD τ).loc main_arg7)
  uf := m ((c : Thread nD τ).loc main_arg8)
  uo := m ((c : Thread nD τ).loc main_arg9)
  uc := m ((c : Thread nD τ).loc main_arg10)
  b1 := m ((c : Thread nD τ).loc main_arg11)
  b2 := m ((c : Thread nD τ).loc main_arg12)
  b3 := m ((c : Thread nD τ).loc main_arg13)
  b4 := m ((c : Thread nD τ).loc main_arg14)
  mask := m ((c : Thread nD τ).loc main_arg15)

/-! ## What the host lines leave -/

/-- The region finds the mask with its unit middle axis dropped. -/
theorem V_mask (c : Dev nD) : (V m c main_v2 : S2048x1024.Idx → EReal)
    = shapeCast S2048x1024 (m ((c : Thread nD τ).loc main_arg15)) shapeCasts_S2048x1x1024_S2048x1024 := by
  show StableHlo.after hostOps0 (fun b => m (c, b)) (Proc.devRef .tc main_v2) = _
  after_results
  rfl

/-- The region finds the four biases end to end in one row. -/
theorem V_bias (c : Dev nD) : (V m c main_v1 : S1x4096.Idx → EReal)
    = biasRow (m ((c : Thread nD τ).loc main_arg11)) (m ((c : Thread nD τ).loc main_arg12))
        (m ((c : Thread nD τ).loc main_arg13)) (m ((c : Thread nD τ).loc main_arg14)) := by
  show StableHlo.after hostOps0 (fun b => m (c, b)) (Proc.devRef .tc main_v1) = _
  after_results
  rfl

/-- The first result is the pipeline's first output array with a unit middle axis. -/
theorem tail_h (c : Dev nD) : (Pipeline.afterTail₀ cfgs (dats m) 0 (V0 m) [hostOps1] c main_v4 : S2048x1x1024.Idx → EReal)
    = shapeCast S2048x1x1024 ((dats m 0 c).arrAt 13 cfg0.N) shapeCasts_S2048x1024_S2048x1x1024 := by
  unfold Pipeline.afterTail₀
  show StableHlo.after hostOps1 _ (Proc.devRef .tc main_v4) = _
  after_results
  rw [Pipeline.withArrays_arr spec0 launch0.win.arr_inj c _ _ 13]
  rfl

/-- The second result is the pipeline's second output array with a unit middle axis. -/
theorem tail_c (c : Dev nD) : (Pipeline.afterTail₀ cfgs (dats m) 0 (V0 m) [hostOps1] c main_v5 : S2048x1x1024.Idx → EReal)
    = shapeCast S2048x1x1024 ((dats m 0 c).arrAt 14 cfg0.N) shapeCasts_S2048x1024_S2048x1x1024 := by
  unfold Pipeline.afterTail₀
  show StableHlo.after hostOps1 _ (Proc.devRef .tc main_v5) = _
  after_results
  rw [Pipeline.withArrays_arr spec0 launch0.win.arr_inj c _ _ 14]
  rfl

/-! ## Where each window's block sits in its array -/

theorem hz : (![0, 0] : Fin 2 → Nat) = fun _ => 0 := funext fun a => by fin_cases a <;> rfl

/-- The six windows of 256 rows sit at block row `t`; -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
/-- the weights and the row of biases are staged whole. -/
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

/-- Row `p` of point `t`'s block is row `256 t + p` of the array. -/
theorem row_lt (t : Fin cfg0.N) (p : Fin 256) : 256 * t.val + p.val < 2048 := by
  have h8 : cfg0.N = 8 := N_0
  have ht : t.val < cfg0.N := t.isLt
  have hp : p.val < 256 := p.isLt
  omega

/-- The row of the array that row `p` of point `t`'s block is. -/
abbrev rowOf (t : Fin cfg0.N) (p : Fin 256) : Fin 2048 := ⟨256 * t.val + p.val, row_lt t p⟩

theorem blk0 (c : Dev nD) (t : Fin cfg0.N) (p : Fin 256) (k : Fin 1024) :
    iblk m c 0 t (ix2 p k) = V m c main_arg0 (ix2 (rowOf t p) k) := by
  show V m c main_arg0 (((cfg0.win 0).blk t).view.emb (ix2 p k)) = V m c main_arg0 (ix2 (rowOf t p) k)
  refine congrArg _ (funext fun a => Fin.ext ?_)
  have e0 : win0_0.index t (0 : Fin 2) = t.val := congrFun (idx0 t) 0
  have e1 : win0_0.index t (1 : Fin 2) = 0 := congrFun (idx0 t) 1
  match a with
  | ⟨0, _⟩ => show win0_0.index t (0 : Fin 2) * 256 + 1 * p.val = 256 * t.val + p.val; omega
  | ⟨1, _⟩ => show win0_0.index t (1 : Fin 2) * 1024 + 1 * k.val = k.val; omega

theorem blk1 (c : Dev nD) (t : Fin cfg0.N) (p : Fin 256) (k : Fin 1024) :
    iblk m c 1 t (ix2 p k) = V m c main_arg1 (ix2 (rowOf t p) k) := by
  show V m c main_arg1 (((cfg0.win 1).blk t).view.emb (ix2 p k)) = V m c main_arg1 (ix2 (rowOf t p) k)
  refine congrArg _ (funext fun a => Fin.ext ?_)
  have e0 : win0_1.index t (0 : Fin 2) = t.val := congrFun (idx1 t) 0
  have e1 : win0_1.index t (1 : Fin 2) = 0 := congrFun (idx1 t) 1
  match a with
  | ⟨0, _⟩ => show win0_1.index t (0 : Fin 2) * 256 + 1 * p.val = 256 * t.val + p.val; omega
  | ⟨1, _⟩ => show win0_1.index t (1 : Fin 2) * 1024 + 1 * k.val = k.val; omega

theorem blk2 (c : Dev nD) (t : Fin cfg0.N) (p : Fin 256) (k : Fin 1024) :
    iblk m c 2 t (ix2 p k) = V m c main_arg2 (ix2 (rowOf t p) k) := by
  show V m c main_arg2 (((cfg0.win 2).blk t).view.emb (ix2 p k)) = V m c main_arg2 (ix2 (rowOf t p) k)
  refine congrArg _ (funext fun a => Fin.ext ?_)
  have e0 : win0_2.index t (0 : Fin 2) = t.val := congrFun (idx2 t) 0
  have e1 : win0_2.index t (1 : Fin 2) = 0 := congrFun (idx2 t) 1
  match a with
  | ⟨0, _⟩ => show win0_2.index t (0 : Fin 2) * 256 + 1 * p.val = 256 * t.val + p.val; omega
  | ⟨1, _⟩ => show win0_2.index t (1 : Fin 2) * 1024 + 1 * k.val = k.val; omega

theorem blk3 (c : Dev nD) (t : Fin cfg0.N) (p : Fin 256) (k : Fin 1024) :
    iblk m c 3 t (ix2 p k) = V m c main_v2 (ix2 (rowOf t p) k) := by
  show V m c main_v2 (((cfg0.win 3).blk t).view.emb (ix2 p k)) = V m c main_v2 (ix2 (rowOf t p) k)
  refine congrArg _ (funext fun a => Fin.ext ?_)
  have e0 : win0_3.index t (0 : Fin 2) = t.val := congrFun (idx3 t) 0
  have e1 : win0_3.index t (1 : Fin 2) = 0 := congrFun (idx3 t) 1
  match a with
  | ⟨0, _⟩ => show win0_3.index t (0 : Fin 2) * 256 + 1 * p.val = 256 * t.val + p.val; omega
  | ⟨1, _⟩ => show win0_3.index t (1 : Fin 2) * 1024 + 1 * k.val = k.val; omega

theorem blk4 (c : Dev nD) (t : Fin cfg0.N) (k q : Fin 1024) : iblk m c 4 t (ix2 k q) = V m c main_arg4 (ix2 k q) := by
  show V m c main_arg4 (((cfg0.win 4).blk t).view.emb (ix2 k q)) = V m c main_arg4 (ix2 k q)
  refine congrArg _ (funext fun a => Fin.ext ?_)
  have e0 : win0_4.index t (0 : Fin 2) = 0 := congrFun (idx4 t) 0
  have e1 : win0_4.index t (1 : Fin 2) = 0 := congrFun (idx4 t) 1
  match a with
  | ⟨0, _⟩ => show win0_4.index t (0 : Fin 2) * 1024 + 1 * k.val = k.val; omega
  | ⟨1, _⟩ => show win0_4.index t (1 : Fin 2) * 1024 + 1 * q.val = q.val; omega

theorem blk5 (c : Dev nD) (t : Fin cfg0.N) (k q : Fin 1024) : iblk m c 5 t (ix2 k q) = V m c main_arg3 (ix2 k q) := by
  show V m c main_arg3 (((cfg0.win 5).blk t).view.emb (ix2 k q)) = V m c main_arg3 (ix2 k q)
  refine congrArg _ (funext fun a => Fin.ext ?_)
  have e0 : win0_5.index t (0 : Fin 2) = 0 := congrFun (idx5 t) 0
  have e1 : win0_5.index t (1 : Fin 2) = 0 := congrFun (idx5 t) 1
  match a with
  | ⟨0, _⟩ => show win0_5.index t (0 : Fin 2) * 1024 + 1 * k.val = k.val; omega
  | ⟨1, _⟩ => show win0_5.index t (1 : Fin 2) * 1024 + 1 * q.val = q.val; omega

theorem blk6 (c : Dev nD) (t : Fin cfg0.N) (k q : Fin 1024) : iblk m c 6 t (ix2 k q) = V m c main_arg5 (ix2 k q) := by
  show V m c main_arg5 (((cfg0.win 6).blk t).view.emb (ix2 k q)) = V m c main_arg5 (ix2 k q)
  refine congrArg _ (funext fun a => Fin.ext ?_)
  have e0 : win0_6.index t (0 : Fin 2) = 0 := congrFun (idx6 t) 0
  have e1 : win0_6.index t (1 : Fin 2) = 0 := congrFun (idx6 t) 1
  match a with
  | ⟨0, _⟩ => show win0_6.index t (0 : Fin 2) * 1024 + 1 * k.val = k.val; omega
  | ⟨1, _⟩ => show win0_6.index t (1 : Fin 2) * 1024 + 1 * q.val = q.val; omega

theorem blk7 (c : Dev nD) (t : Fin cfg0.N) (k q : Fin 1024) : iblk m c 7 t (ix2 k q) = V m c main_arg6 (ix2 k q) := by
  show V m c main_arg6 (((cfg0.win 7).blk t).view.emb (ix2 k q)) = V m c main_arg6 (ix2 k q)
  refine congrArg _ (funext fun a => Fin.ext ?_)
  have e0 : win0_7.index t (0 : Fin 2) = 0 := congrFun (idx7 t) 0
  have e1 : win0_7.index t (1 : Fin 2) = 0 := congrFun (idx7 t) 1
  match a with
  | ⟨0, _⟩ => show win0_7.index t (0 : Fin 2) * 1024 + 1 * k.val = k.val; omega
  | ⟨1, _⟩ => show win0_7.index t (1 : Fin 2) * 1024 + 1 * q.val = q.val; omega

theorem blk8 (c : Dev nD) (t : Fin cfg0.N) (k q : Fin 1024) : iblk m c 8 t (ix2 k q) = V m c main_arg8 (ix2 k q) := by
  show V m c main_arg8 (((cfg0.win 8).blk t).view.emb (ix2 k q)) = V m c main_arg8 (ix2 k q)
  refine congrArg _ (funext fun a => Fin.ext ?_)
  have e0 : win0_8.index t (0 : Fin 2) = 0 := congrFun (idx8 t) 0
  have e1 : win0_8.index t (1 : Fin 2) = 0 := congrFun (idx8 t) 1
  match a with
  | ⟨0, _⟩ => show win0_8.index t (0 : Fin 2) * 1024 + 1 * k.val = k.val; omega
  | ⟨1, _⟩ => show win0_8.index t (1 : Fin 2) * 1024 + 1 * q.val = q.val; omega

theorem blk9 (c : Dev nD) (t : Fin cfg0.N) (k q : Fin 1024) : iblk m c 9 t (ix2 k q) = V m c main_arg7 (ix2 k q) := by
  show V m c main_arg7 (((cfg0.win 9).blk t).view.emb (ix2 k q)) = V m c main_arg7 (ix2 k q)
  refine congrArg _ (funext fun a => Fin.ext ?_)
  have e0 : win0_9.index t (0 : Fin 2) = 0 := congrFun (idx9 t) 0
  have e1 : win0_9.index t (1 : Fin 2) = 0 := congrFun (idx9 t) 1
  match a with
  | ⟨0, _⟩ => show win0_9.index t (0 : Fin 2) * 1024 + 1 * k.val = k.val; omega
  | ⟨1, _⟩ => show win0_9.index t (1 : Fin 2) * 1024 + 1 * q.val = q.val; omega

theorem blk10 (c : Dev nD) (t : Fin cfg0.N) (k q : Fin 1024) : iblk m c 10 t (ix2 k q) = V m c main_arg9 (ix2 k q) := by
  show V m c main_arg9 (((cfg0.win 10).blk t).view.emb (ix2 k q)) = V m c main_arg9 (ix2 k q)
  refine congrArg _ (funext fun a => Fin.ext ?_)
  have e0 : win0_10.index t (0 : Fin 2) = 0 := congrFun (idx10 t) 0
  have e1 : win0_10.index t (1 : Fin 2) = 0 := congrFun (idx10 t) 1
  match a with
  | ⟨0, _⟩ => show win0_10.index t (0 : Fin 2) * 1024 + 1 * k.val = k.val; omega
  | ⟨1, _⟩ => show win0_10.index t (1 : Fin 2) * 1024 + 1 * q.val = q.val; omega

theorem blk11 (c : Dev nD) (t : Fin cfg0.N) (k q : Fin 1024) : iblk m c 11 t (ix2 k q) = V m c main_arg10 (ix2 k q) := by
  show V m c main_arg10 (((cfg0.win 11).blk t).view.emb (ix2 k q)) = V m c main_arg10 (ix2 k q)
  refine congrArg _ (funext fun a => Fin.ext ?_)
  have e0 : win0_11.index t (0 : Fin 2) = 0 := congrFun (idx11 t) 0
  have e1 : win0_11.index t (1 : Fin 2) = 0 := congrFun (idx11 t) 1
  match a with
  | ⟨0, _⟩ => show win0_11.index t (0 : Fin 2) * 1024 + 1 * k.val = k.val; omega
  | ⟨1, _⟩ => show win0_11.index t (1 : Fin 2) * 1024 + 1 * q.val = q.val; omega

theorem blk12 (c : Dev nD) (t : Fin cfg0.N) (q : Fin 4096) : iblk m c 12 t (ix2 (0 : Fin 1) q) = V m c main_v1 (ix2 (0 : Fin 1) q) := by
  show V m c main_v1 (((cfg0.win 12).blk t).view.emb (ix2 (0 : Fin 1) q)) = V m c main_v1 (ix2 (0 : Fin 1) q)
  refine congrArg _ (funext fun a => Fin.ext ?_)
  have e0 : win0_12.index t (0 : Fin 2) = 0 := congrFun (idx12 t) 0
  have e1 : win0_12.index t (1 : Fin 2) = 0 := congrFun (idx12 t) 1
  match a with
  | ⟨0, _⟩ => show win0_12.index t (0 : Fin 2) * 1 + 1 * (0 : Fin 1).val = (0 : Fin 1).val; omega
  | ⟨1, _⟩ => show win0_12.index t (1 : Fin 2) * 4096 + 1 * q.val = q.val; omega

/-! ## The body's arithmetic at a point of the batch -/

open Cert.LstmSpec in
/-- The new cell state the body computes at row `p`, unit `q` of a block is the specification's at the row of the
    batch the block's row is, once each loaded block agrees with its argument array there. -/
theorem cell_point (a : Args) (x0 x1 x2 : Vec Ideal S256x1024 .f32) (w4 w5 w7 w8 w9 w11 : Vec Ideal S1024x1024 .f32)
    (b12 : Vec Ideal S1x4096 .f32) (r : Fin 2048) (p : Fin 256) (q : Fin 1024)
    (h0 : ∀ k : Fin 1024, x0 (ix2 p k) = a.x (ix2 r k)) (h1 : ∀ k : Fin 1024, x1 (ix2 p k) = a.h (ix2 r k))
    (h2 : x2 (ix2 p q) = a.c (ix2 r q))
    (h4 : ∀ k : Fin 1024, w4 (ix2 k q) = a.wf (ix2 k q)) (h5 : ∀ k : Fin 1024, w5 (ix2 k q) = a.wi (ix2 k q))
    (h7 : ∀ k : Fin 1024, w7 (ix2 k q) = a.wc (ix2 k q)) (h8 : ∀ k : Fin 1024, w8 (ix2 k q) = a.uf (ix2 k q))
    (h9 : ∀ k : Fin 1024, w9 (ix2 k q) = a.ui (ix2 k q)) (h11 : ∀ k : Fin 1024, w11 (ix2 k q) = a.uc (ix2 k q))
    (hb1 : b12 (ix2 (0 : Fin 1) ⟨q.val, by omega⟩) = a.b1 (ix1 q))
    (hb2 : b12 (ix2 (0 : Fin 1) ⟨1024 + q.val, by omega⟩) = a.b2 (ix1 q))
    (hb4 : b12 (ix2 (0 : Fin 1) ⟨3072 + q.val, by omega⟩) = a.b4 (ix1 q)) :
    cPay (F := Ideal) x0 x1 x2 w4 w5 w7 w8 w9 w11 b12 (ix2 p q) = cell a r q := by
  rw [cPay_apply, h2, hb1, hb2, hb4]
  unfold cell pre dot
  simp only [h0, h1, h4, h5, h7, h8, h9, h11]

open Cert.LstmSpec in
/-- The masked new hidden state the body computes there is the specification's times the mask's entry. -/
theorem hidden_point (a : Args) (x0 x1 x2 x3 : Vec Ideal S256x1024 .f32) (w4 w5 w6 w7 w8 w9 w10 w11 : Vec Ideal S1024x1024 .f32)
    (b12 : Vec Ideal S1x4096 .f32) (r : Fin 2048) (p : Fin 256) (q : Fin 1024)
    (h0 : ∀ k : Fin 1024, x0 (ix2 p k) = a.x (ix2 r k)) (h1 : ∀ k : Fin 1024, x1 (ix2 p k) = a.h (ix2 r k))
    (h2 : x2 (ix2 p q) = a.c (ix2 r q)) (h3 : x3 (ix2 p q) = a.mask (ix3 r (0 : Fin 1) q))
    (h4 : ∀ k : Fin 1024, w4 (ix2 k q) = a.wf (ix2 k q)) (h5 : ∀ k : Fin 1024, w5 (ix2 k q) = a.wi (ix2 k q))
    (h6 : ∀ k : Fin 1024, w6 (ix2 k q) = a.wo (ix2 k q))
    (h7 : ∀ k : Fin 1024, w7 (ix2 k q) = a.wc (ix2 k q)) (h8 : ∀ k : Fin 1024, w8 (ix2 k q) = a.uf (ix2 k q))
    (h9 : ∀ k : Fin 1024, w9 (ix2 k q) = a.ui (ix2 k q)) (h10 : ∀ k : Fin 1024, w10 (ix2 k q) = a.uo (ix2 k q))
    (h11 : ∀ k : Fin 1024, w11 (ix2 k q) = a.uc (ix2 k q))
    (hb1 : b12 (ix2 (0 : Fin 1) ⟨q.val, by omega⟩) = a.b1 (ix1 q))
    (hb2 : b12 (ix2 (0 : Fin 1) ⟨1024 + q.val, by omega⟩) = a.b2 (ix1 q))
    (hb3 : b12 (ix2 (0 : Fin 1) ⟨2048 + q.val, by omega⟩) = a.b3 (ix1 q))
    (hb4 : b12 (ix2 (0 : Fin 1) ⟨3072 + q.val, by omega⟩) = a.b4 (ix1 q)) :
    hPay (F := Ideal) x0 x1 x2 x3 w4 w5 w6 w7 w8 w9 w10 w11 b12 (ix2 p q) = Cert.LstmSpec.hidden a r q * a.mask (ix3 r (0 : Fin 1) q) := by
  rw [hPay_apply, cell_point a x0 x1 x2 w4 w5 w7 w8 w9 w11 b12 r p q h0 h1 h2 h4 h5 h7 h8 h9 h11 hb1 hb2 hb4, h3, hb3]
  unfold Cert.LstmSpec.hidden pre dot
  simp only [h0, h1, h6, h10]

/-! ## The two arrays the pipeline leaves -/

/-- The masked new hidden state over the batch, rows by units. -/
def hArr (a : Cert.LstmSpec.Args) : S2048x1024.Idx → EReal :=
  fun i => Cert.LstmSpec.hidden a (i 0) (i 1) * a.mask (ix3 (i 0) (0 : Fin 1) (i 1))

/-- The new cell state over the batch, rows by units. -/
def cArr (a : Cert.LstmSpec.Args) : S2048x1024.Idx → EReal := fun i => Cert.LstmSpec.cell a (i 0) (i 1)

/-! ## What each grid point writes back -/

/-- An argument array the region finds as launched, read through the record of arguments. -/
theorem V_x (c : Dev nD) : V m c main_arg0 = (argsOf m c).x := V_of_ne m c main_arg0 (by decide) (by decide) (by decide)
theorem V_h (c : Dev nD) : V m c main_arg1 = (argsOf m c).h := V_of_ne m c main_arg1 (by decide) (by decide) (by decide)
theorem V_c (c : Dev nD) : V m c main_arg2 = (argsOf m c).c := V_of_ne m c main_arg2 (by decide) (by decide) (by decide)
theorem V_wi (c : Dev nD) : V m c main_arg3 = (argsOf m c).wi := V_of_ne m c main_arg3 (by decide) (by decide) (by decide)
theorem V_wf (c : Dev nD) : V m c main_arg4 = (argsOf m c).wf := V_of_ne m c main_arg4 (by decide) (by decide) (by decide)
theorem V_wo (c : Dev nD) : V m c main_arg5 = (argsOf m c).wo := V_of_ne m c main_arg5 (by decide) (by decide) (by decide)
theorem V_wc (c : Dev nD) : V m c main_arg6 = (argsOf m c).wc := V_of_ne m c main_arg6 (by decide) (by decide) (by decide)
theorem V_ui (c : Dev nD) : V m c main_arg7 = (argsOf m c).ui := V_of_ne m c main_arg7 (by decide) (by decide) (by decide)
theorem V_uf (c : Dev nD) : V m c main_arg8 = (argsOf m c).uf := V_of_ne m c main_arg8 (by decide) (by decide) (by decide)
theorem V_uo (c : Dev nD) : V m c main_arg9 = (argsOf m c).uo := V_of_ne m c main_arg9 (by decide) (by decide) (by decide)
theorem V_uc (c : Dev nD) : V m c main_arg10 = (argsOf m c).uc := V_of_ne m c main_arg10 (by decide) (by decide) (by decide)

/-- The flattened mask the region finds, at row `r`, unit `j`, is the mask at `(r, 0, j)`. -/
theorem V_mask_apply (c : Dev nD) (r : Fin 2048) (j : Fin 1024) :
    V m c main_v2 (ix2 r j) = (argsOf m c).mask (ix3 r (0 : Fin 1) j) := by
  rw [V_mask]; exact maskFlat_apply _ r j

/-- The row of biases the region finds, read inside each of its four stretches of 1024. -/
theorem V_bias0 (c : Dev nD) (q : Fin 1024) : V m c main_v1 (ix2 (0 : Fin 1) ⟨q.val, by omega⟩) = (argsOf m c).b1 (ix1 q) := by
  rw [V_bias]; exact biasRow_apply0 _ _ _ _ q
theorem V_bias1 (c : Dev nD) (q : Fin 1024) : V m c main_v1 (ix2 (0 : Fin 1) ⟨1024 + q.val, by omega⟩) = (argsOf m c).b2 (ix1 q) := by
  rw [V_bias]; exact biasRow_apply1 _ _ _ _ q
theorem V_bias2 (c : Dev nD) (q : Fin 1024) : V m c main_v1 (ix2 (0 : Fin 1) ⟨2048 + q.val, by omega⟩) = (argsOf m c).b3 (ix1 q) := by
  rw [V_bias]; exact biasRow_apply2 _ _ _ _ q
theorem V_bias3 (c : Dev nD) (q : Fin 1024) : V m c main_v1 (ix2 (0 : Fin 1) ⟨3072 + q.val, by omega⟩) = (argsOf m c).b4 (ix1 q) := by
  rw [V_bias]; exact biasRow_apply3 _ _ _ _ q

/-- Where row `p`, unit `q` of point `t`'s output block sits in the output arrays. -/
theorem emb13 (t : Fin cfg0.N) (p : Fin 256) (q : Fin 1024) :
    ((cfg0.win 13).blk t).view.emb (ix2 p q) = ix2 (rowOf t p) q := by
  refine funext fun a => Fin.ext ?_
  have e0 : win0_13.index t (0 : Fin 2) = t.val := congrFun (idx13 t) 0
  have e1 : win0_13.index t (1 : Fin 2) = 0 := congrFun (idx13 t) 1
  match a with
  | ⟨0, _⟩ => show win0_13.index t (0 : Fin 2) * 256 + 1 * p.val = 256 * t.val + p.val; omega
  | ⟨1, _⟩ => show win0_13.index t (1 : Fin 2) * 1024 + 1 * q.val = q.val; omega

theorem emb14 (t : Fin cfg0.N) (p : Fin 256) (q : Fin 1024) :
    ((cfg0.win 14).blk t).view.emb (ix2 p q) = ix2 (rowOf t p) q := by
  refine funext fun a => Fin.ext ?_
  have e0 : win0_14.index t (0 : Fin 2) = t.val := congrFun (idx14 t) 0
  have e1 : win0_14.index t (1 : Fin 2) = 0 := congrFun (idx14 t) 1
  match a with
  | ⟨0, _⟩ => show win0_14.index t (0 : Fin 2) * 256 + 1 * p.val = 256 * t.val + p.val; omega
  | ⟨1, _⟩ => show win0_14.index t (1 : Fin 2) * 1024 + 1 * q.val = q.val; omega

/-- What point `t` writes back into the second output array is its block of the new cell state. -/
theorem flushed14_eq (c : Dev nD) (t : Fin cfg0.N) :
    (dats m 0 c).flushed 14 t = ((cfg0.win 14).blk t).view.read (Elt Ideal) (cArr (argsOf m c)) := by
  show (cfg0.win 14).cut (grid0.coords t) ((dats m 0 c).after 14 t) = _
  rw [after14]
  unfold cBlk
  rw [View.canon_unit_zero hz]
  simp only [View.ld_unit_zero (S := S256x1024) hz, View.ld_unit_zero (S := S1024x1024) hz, View.ld_unit_zero (S := S1x4096) hz]
  funext j
  obtain ⟨p, q, rfl⟩ : ∃ (p : Fin 256) (q : Fin 1024), j = ix2 p q := ⟨j 0, j 1, eq_ix2 j⟩
  refine (cell_point (argsOf m c) (iblk m c 0 t) (iblk m c 1 t) (iblk m c 2 t) (iblk m c 4 t) (iblk m c 5 t) (iblk m c 7 t)
    (iblk m c 8 t) (iblk m c 9 t) (iblk m c 11 t) (iblk m c 12 t) (rowOf t p) p q
    (fun k => (blk0 m c t p k).trans (congrFun (V_x m c) _)) (fun k => (blk1 m c t p k).trans (congrFun (V_h m c) _))
    ((blk2 m c t p q).trans (congrFun (V_c m c) _))
    (fun k => (blk4 m c t k q).trans (congrFun (V_wf m c) _)) (fun k => (blk5 m c t k q).trans (congrFun (V_wi m c) _))
    (fun k => (blk7 m c t k q).trans (congrFun (V_wc m c) _)) (fun k => (blk8 m c t k q).trans (congrFun (V_uf m c) _))
    (fun k => (blk9 m c t k q).trans (congrFun (V_ui m c) _)) (fun k => (blk11 m c t k q).trans (congrFun (V_uc m c) _))
    ((blk12 m c t _).trans (V_bias0 m c q)) ((blk12 m c t _).trans (V_bias1 m c q)) ((blk12 m c t _).trans (V_bias3 m c q))).trans ?_
  rw [View.read_apply, emb14]
  rfl

/-- What point `t` writes back into the first output array is its block of the masked new hidden state. -/
theorem flushed13_eq (c : Dev nD) (t : Fin cfg0.N) :
    (dats m 0 c).flushed 13 t = ((cfg0.win 13).blk t).view.read (Elt Ideal) (hArr (argsOf m c)) := by
  show (cfg0.win 13).cut (grid0.coords t) ((dats m 0 c).after 13 t) = _
  rw [after13]
  unfold hBlk
  rw [View.canon_unit_zero hz]
  simp only [View.ld_unit_zero (S := S256x1024) hz, View.ld_unit_zero (S := S1024x1024) hz, View.ld_unit_zero (S := S1x4096) hz]
  funext j
  obtain ⟨p, q, rfl⟩ : ∃ (p : Fin 256) (q : Fin 1024), j = ix2 p q := ⟨j 0, j 1, eq_ix2 j⟩
  refine (hidden_point (argsOf m c) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (rowOf t p) p q
    (fun k => (blk0 m c t p k).trans (congrFun (V_x m c) _)) (fun k => (blk1 m c t p k).trans (congrFun (V_h m c) _))
    ((blk2 m c t p q).trans (congrFun (V_c m c) _)) ((blk3 m c t p q).trans (V_mask_apply m c _ q))
    (fun k => (blk4 m c t k q).trans (congrFun (V_wf m c) _)) (fun k => (blk5 m c t k q).trans (congrFun (V_wi m c) _))
    (fun k => (blk6 m c t k q).trans (congrFun (V_wo m c) _))
    (fun k => (blk7 m c t k q).trans (congrFun (V_wc m c) _)) (fun k => (blk8 m c t k q).trans (congrFun (V_uf m c) _))
    (fun k => (blk9 m c t k q).trans (congrFun (V_ui m c) _)) (fun k => (blk10 m c t k q).trans (congrFun (V_uo m c) _))
    (fun k => (blk11 m c t k q).trans (congrFun (V_uc m c) _))
    ((blk12 m c t _).trans (V_bias0 m c q)) ((blk12 m c t _).trans (V_bias1 m c q)) ((blk12 m c t _).trans (V_bias2 m c q))
    ((blk12 m c t _).trans (V_bias3 m c q))).trans ?_
  rw [View.read_apply, emb13]
  rfl

/-! ## The eight blocks tile the rows -/

/-- An index of an output array is in point `t`'s block iff each coordinate is in the block's range on its axis. -/
theorem mem_blk13 (t : Fin cfg0.N) (i : S2048x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v3_0).slice (win0_13.rect t)).set ↔ _
  rw [View.set_slice_whole, Rect.mem_set_unit]
  exact Iff.rfl

theorem mem_blk14 (t : Fin cfg0.N) (i : S2048x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v3_1).slice (win0_14.rect t)).set ↔ _
  rw [View.set_slice_whole, Rect.mem_set_unit]
  exact Iff.rfl

/-- Row `r` is in the block of the point `r / 256`. -/
theorem cover13 (i : S2048x1024.Idx) : ∃ t : Fin cfg0.N, (cfg0.win 13).flush t = true ∧ i ∈ ((cfg0.win 13).blk t).view.set := by
  have hi0 : (i 0).val < 2048 := (i 0).isLt
  have hi1 : (i 1).val < 1024 := (i 1).isLt
  have h8 : cfg0.N = 8 := N_0
  let t : Fin cfg0.N := ⟨(i 0).val / 256, by omega⟩
  have e0 : win0_13.index t (0 : Fin 2) = (i 0).val / 256 := congrFun (idx13 t) 0
  have e1 : win0_13.index t (1 : Fin 2) = 0 := congrFun (idx13 t) 1
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

theorem cover14 (i : S2048x1024.Idx) : ∃ t : Fin cfg0.N, (cfg0.win 14).flush t = true ∧ i ∈ ((cfg0.win 14).blk t).view.set := by
  have hi0 : (i 0).val < 2048 := (i 0).isLt
  have hi1 : (i 1).val < 1024 := (i 1).isLt
  have h8 : cfg0.N = 8 := N_0
  let t : Fin cfg0.N := ⟨(i 0).val / 256, by omega⟩
  have e0 : win0_14.index t (0 : Fin 2) = (i 0).val / 256 := congrFun (idx14 t) 0
  have e1 : win0_14.index t (1 : Fin 2) = 0 := congrFun (idx14 t) 1
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-! ## The arrays after the run, and the run -/

/-- The first output array ends holding the masked new hidden state. -/
theorem final13 (c : Dev nD) : (dats m 0 c).arrAt 13 cfg0.N = hArr (argsOf m c) :=
  (dats m 0 c).arrAt_eq_of_cover 13 (hArr (argsOf m c)) (fun t _ => flushed13_eq m c t) cover13

/-- The second output array ends holding the new cell state. -/
theorem final14 (c : Dev nD) : (dats m 0 c).arrAt 14 cfg0.N = cArr (argsOf m c) :=
  (dats m 0 c).arrAt_eq_of_cover 14 (cArr (argsOf m c)) (fun t _ => flushed14_eq m c t) cover14

/-- The first result: the first output array with a unit middle axis is the specification's masked hidden state. -/
theorem res_h (c : Dev nD) :
    (shapeCast S2048x1x1024 ((dats m 0 c).arrAt 13 cfg0.N) shapeCasts_S2048x1024_S2048x1x1024 : S2048x1x1024.Idx → EReal)
      = Cert.LstmSpec.hOut (argsOf m c) := by
  rw [final13]
  funext i
  obtain ⟨r, u, j, rfl⟩ : ∃ (r : Fin 2048) (u : Fin 1) (j : Fin 1024), i = ix3 r u j := ⟨i 0, i 1, i 2, eq_ix3 i⟩
  rw [unflat_apply, Cert.LstmSpec.hOut_apply]
  obtain rfl : u = 0 := Subsingleton.elim _ _
  rfl

/-- The second result is the specification's cell state. -/
theorem res_c (c : Dev nD) :
    (shapeCast S2048x1x1024 ((dats m 0 c).arrAt 14 cfg0.N) shapeCasts_S2048x1024_S2048x1x1024 : S2048x1x1024.Idx → EReal)
      = Cert.LstmSpec.cOut (argsOf m c) := by
  rw [final14]
  funext i
  obtain ⟨r, u, j, rfl⟩ : ∃ (r : Fin 2048) (u : Fin 1) (j : Fin 1024), i = ix3 r u j := ⟨i 0, i 1, i 2, eq_ix3 i⟩
  rw [unflat_apply, Cert.LstmSpec.cOut_apply]
  rfl

/-- The kernel's run, read: every weakly fair execution terminates with the first result at the specification's masked
    hidden state of the launched arguments, the second at its cell state, and the arguments unchanged. -/
theorem run : θ_run defs (onTc (τ := τ) (main (F := Ideal))) ⟨m, fun _ => 0, ρ⟩ fun r => ∀ c : Dev nD,
      r.2.mem ((c.tc : Thread nD τ).loc main_v4) = Cert.LstmSpec.hOut (argsOf m c)
      ∧ r.2.mem ((c.tc : Thread nD τ).loc main_v5) = Cert.LstmSpec.cOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c =>
    ⟨((h c).2 main_v4 (Pipeline.mem_restRefs_of main_v4 (by decide) (by decide))).trans ((tail_h m c).trans (res_h m c)),
     ((h c).2 main_v5 (Pipeline.mem_restRefs_of main_v5 (by decide) (by decide))).trans ((tail_c m c).trans (res_c m c)),
     kept m r h c⟩)
    (run_main m ρ)

end Cert.KernelIdeal.Hand

end
-- ==== Proof.RefValue.lean ====
import proofs.«169139_j23922967838797_2_alg».proof.Proof.Gen.ReferenceIdeal.Read
import proofs.«169139_j23922967838797_2_alg».proof.Proof.Spec
import Idealize.ShloMosaic.Lib.ValueIdx
import Idealize.ShloMosaic.Lib.Pipeline.Value
import Idealize.ShloMosaic.PureOps.Ideal
/-
  The reference side: the reference program's two results are the specification's two functions.

  The reference joins the four gates' input weights along the columns into one 1024 by 4096 matrix (forget, input,
  output, candidate, in that order), likewise the recurrent weights, and the four biases into one vector of 4096
  entries; computes  input · Wx + hidden · Wh + b  over [2048, 4096]; and cuts the result back into four bands of 1024
  columns. Column 1024 b + j of a joined matrix is column j of matrix b, and entry 1024 b + j of the joined bias is
  entry j of bias b, so band b of the joined pre-activations, at row r and unit j, is gate b's own pre-activation
      (sum over k of x[r,k] * W_b[k,j]) + (sum over k of h[r,k] * U_b[k,j]) + bias_b[j],
  with the same grouping of the three terms as the specification's. The reference writes the sigmoid out as
  1 / (1 + exp (-x)), with the literal one, which is the logistic function on the extended reals by definition. The
  rest is pointwise: c' = c * f + i * g, h' = (o * tanh c') * mask, both returned with a unit middle axis.
  Nothing here needs the inputs to be finite: every step is a re-indexing or the unfolding of a definition.
-/

noncomputable section

namespace Cert.ReferenceIdeal.RefValue

open Cert.ReferenceIdeal Cert.ReferenceIdeal.Read Idealize.ShloMosaic Idealize.ShloMosaic.ValueIdx Cert.LstmSpec

/-- The pattern of the literal one denotes the real one. -/
theorem ofBits_one : Ideal.ofBits .f32 0x3F800000#32 = 1 := by
  simp [Ideal.ofBits, Ideal.ieee, -EReal.coe_mul]; norm_num

/-- Position `j` of band `b` among 4096 positions cut into four bands of 1024: `1024 b + j`. -/
abbrev col (b : Fin 4) (j : Fin 1024) : Fin 4096 := ⟨1024 * b.val + j.val, by have := b.isLt; have := j.isLt; omega⟩

/-! ## Four pieces joined along an axis, read inside a band -/

/-- Four square matrices joined along the columns, read at row `k`, column `j` of band `b`: matrix `b` at `(k, j)`. -/
theorem cat4_cols (a0 a1 a2 a3 : (⟨S1024x1024, .f32⟩ : BufTy).Contents (Elt Ideal))
    (h : Shape.Concatenates [S1024x1024, S1024x1024, S1024x1024, S1024x1024] S1024x4096 1) (b : Fin 4) (k j : Fin 1024) :
    concatenate S1024x4096 1 [⟨S1024x1024, a0⟩, ⟨S1024x1024, a1⟩, ⟨S1024x1024, a2⟩, ⟨S1024x1024, a3⟩] h (ix2 k (col b j))
      = (![a0, a1, a2, a3] b) (ix2 k j) := by
  have hi : ∀ c : Fin S1024x1024.rank, c.cast (rfl : S1024x1024.rank = S1024x4096.rank) ≠ (1 : Fin 2) →
      ((ix2 k j : S1024x1024.Idx) c).val = ((ix2 k (col b j) : S1024x4096.Idx) (c.cast rfl)).val := by
    intro c hc
    match c with
    | ⟨0, _⟩ => rfl
    | ⟨1, _⟩ => exact absurd rfl hc
  match b with
  | ⟨0, _⟩ =>
    exact concatenate_apply_piece (α := Elt Ideal .f32) (t := S1024x4096) (1 : Fin 2) [⟨S1024x1024, a0⟩, ⟨S1024x1024, a1⟩, ⟨S1024x1024, a2⟩, ⟨S1024x1024, a3⟩]
      h (ix2 k (col 0 j)) 0 (by show _ < 4; omega) S1024x1024 a0 rfl rfl 0 rfl (ix2 k j) hi (by show 0 + j.val = 1024 * 0 + j.val; omega)
  | ⟨1, _⟩ =>
    exact concatenate_apply_piece (α := Elt Ideal .f32) (t := S1024x4096) (1 : Fin 2) [⟨S1024x1024, a0⟩, ⟨S1024x1024, a1⟩, ⟨S1024x1024, a2⟩, ⟨S1024x1024, a3⟩]
      h (ix2 k (col 1 j)) 1 (by show _ < 4; omega) S1024x1024 a1 rfl rfl 1024 rfl (ix2 k j) hi (by show 1024 + j.val = 1024 * 1 + j.val; omega)
  | ⟨2, _⟩ =>
    exact concatenate_apply_piece (α := Elt Ideal .f32) (t := S1024x4096) (1 : Fin 2) [⟨S1024x1024, a0⟩, ⟨S1024x1024, a1⟩, ⟨S1024x1024, a2⟩, ⟨S1024x1024, a3⟩]
      h (ix2 k (col 2 j)) 2 (by show _ < 4; omega) S1024x1024 a2 rfl rfl 2048 rfl (ix2 k j) hi (by show 2048 + j.val = 1024 * 2 + j.val; omega)
  | ⟨3, _⟩ =>
    exact concatenate_apply_piece (α := Elt Ideal .f32) (t := S1024x4096) (1 : Fin 2) [⟨S1024x1024, a0⟩, ⟨S1024x1024, a1⟩, ⟨S1024x1024, a2⟩, ⟨S1024x1024, a3⟩]
      h (ix2 k (col 3 j)) 3 (by show _ < 4; omega) S1024x1024 a3 rfl rfl 3072 rfl (ix2 k j) hi (by show 3072 + j.val = 1024 * 3 + j.val; omega)

/-- Four vectors joined end to end, read at position `j` of band `b`: vector `b` at `j`. -/
theorem cat4_vec (a0 a1 a2 a3 : (⟨S1024, .f32⟩ : BufTy).Contents (Elt Ideal))
    (h : Shape.Concatenates [S1024, S1024, S1024, S1024] S4096 0) (b : Fin 4) (j : Fin 1024) :
    concatenate S4096 0 [⟨S1024, a0⟩, ⟨S1024, a1⟩, ⟨S1024, a2⟩, ⟨S1024, a3⟩] h (ix1 (col b j))
      = (![a0, a1, a2, a3] b) (ix1 j) := by
  have hi : ∀ c : Fin S1024.rank, c.cast (rfl : S1024.rank = S4096.rank) ≠ (0 : Fin 1) →
      ((ix1 j : S1024.Idx) c).val = ((ix1 (col b j) : S4096.Idx) (c.cast rfl)).val := by
    intro c hc
    match c with
    | ⟨0, _⟩ => exact absurd rfl hc
  match b with
  | ⟨0, _⟩ =>
    exact concatenate_apply_piece (α := Elt Ideal .f32) (t := S4096) (0 : Fin 1) [⟨S1024, a0⟩, ⟨S1024, a1⟩, ⟨S1024, a2⟩, ⟨S1024, a3⟩]
      h (ix1 (col 0 j)) 0 (by show _ < 4; omega) S1024 a0 rfl rfl 0 rfl (ix1 j) hi (by show 0 + j.val = 1024 * 0 + j.val; omega)
  | ⟨1, _⟩ =>
    exact concatenate_apply_piece (α := Elt Ideal .f32) (t := S4096) (0 : Fin 1) [⟨S1024, a0⟩, ⟨S1024, a1⟩, ⟨S1024, a2⟩, ⟨S1024, a3⟩]
      h (ix1 (col 1 j)) 1 (by show _ < 4; omega) S1024 a1 rfl rfl 1024 rfl (ix1 j) hi (by show 1024 + j.val = 1024 * 1 + j.val; omega)
  | ⟨2, _⟩ =>
    exact concatenate_apply_piece (α := Elt Ideal .f32) (t := S4096) (0 : Fin 1) [⟨S1024, a0⟩, ⟨S1024, a1⟩, ⟨S1024, a2⟩, ⟨S1024, a3⟩]
      h (ix1 (col 2 j)) 2 (by show _ < 4; omega) S1024 a2 rfl rfl 2048 rfl (ix1 j) hi (by show 2048 + j.val = 1024 * 2 + j.val; omega)
  | ⟨3, _⟩ =>
    exact concatenate_apply_piece (α := Elt Ideal .f32) (t := S4096) (0 : Fin 1) [⟨S1024, a0⟩, ⟨S1024, a1⟩, ⟨S1024, a2⟩, ⟨S1024, a3⟩]
      h (ix1 (col 3 j)) 3 (by show _ < 4; omega) S1024 a3 rfl rfl 3072 rfl (ix1 j) hi (by show 3072 + j.val = 1024 * 3 + j.val; omega)

section Stages

variable (x0 x1 x2 : (⟨S2048x1024, .f32⟩ : BufTy).Contents (Elt Ideal))
  (x3 x4 x5 x6 x7 x8 x9 x10 : (⟨S1024x1024, .f32⟩ : BufTy).Contents (Elt Ideal))
  (x11 x12 x13 x14 : (⟨S1024, .f32⟩ : BufTy).Contents (Elt Ideal))
  (x15 : (⟨S2048x1x1024, .f32⟩ : BufTy).Contents (Elt Ideal))

/-! ## The four gates' pre-activations -/

/-- The joined pre-activations at row `r`, column `c` of the 4096: the input's row against column `c` of the joined
    input weights, plus the hidden state's row against column `c` of the joined recurrent weights, plus entry `c` of
    the joined biases. -/
theorem gates_at (r : Fin 2048) (c : Fin 4096) :
    val_main_v8 (F := Ideal) x0 x1 x3 x4 x5 x6 x7 x8 x9 x10 x11 x12 x13 x14 (ix2 r c)
      = ((∑ k : Fin 1024, x0 (ix2 r k) * val_main_v0 (F := Ideal) x3 x4 x5 x6 (ix2 k c))
          + ∑ k : Fin 1024, x1 (ix2 r k) * val_main_v1 (F := Ideal) x7 x8 x9 x10 (ix2 k c))
        + val_main_v2 (F := Ideal) x11 x12 x13 x14 (ix1 c) := by
  have el3 : ∀ k : Fin 1024, lidx_main_v3 (ix2 r c) k = ix2 r k := fun k => funext fun a => Fin.ext (by
    match a with | ⟨0, _⟩ => rfl | ⟨1, _⟩ => rfl)
  have er3 : ∀ k : Fin 1024, ridx_main_v3 (ix2 r c) k = ix2 k c := fun k => funext fun a => Fin.ext (by
    match a with | ⟨0, _⟩ => rfl | ⟨1, _⟩ => rfl)
  have el4 : ∀ k : Fin 1024, lidx_main_v4 (ix2 r c) k = ix2 r k := fun k => funext fun a => Fin.ext (by
    match a with | ⟨0, _⟩ => rfl | ⟨1, _⟩ => rfl)
  have er4 : ∀ k : Fin 1024, ridx_main_v4 (ix2 r c) k = ix2 k c := fun k => funext fun a => Fin.ext (by
    match a with | ⟨0, _⟩ => rfl | ⟨1, _⟩ => rfl)
  have eb : idx_main_v6 (idx_main_v7 (ix2 r c)) = ix1 c := funext fun a => Fin.ext (by
    match a with | ⟨0, _⟩ => rfl)
  rw [val_main_v8_apply, val_main_v5_apply, val_main_v3_apply, val_main_v4_apply, val_main_v7_apply, val_main_v6_apply, eb]
  simp only [el3, er3, el4, er4, Ideal.addf_def]

/-- Inside band `b` the joined pre-activation is the gate's own: the band's input weights, recurrent weights and bias. -/
theorem gate_band (b : Fin 4) (r : Fin 2048) (j : Fin 1024) :
    val_main_v8 (F := Ideal) x0 x1 x3 x4 x5 x6 x7 x8 x9 x10 x11 x12 x13 x14 (ix2 r (col b j))
      = pre x0 x1 (![x4, x3, x5, x6] b) (![x8, x7, x9, x10] b) ((![x11, x12, x13, x14] b) (ix1 j)) r j := by
  rw [gates_at]
  unfold pre dot
  refine congrArg₂ (· + ·) (congrArg₂ (· + ·) (Finset.sum_congr rfl fun k _ => ?_) (Finset.sum_congr rfl fun k _ => ?_)) ?_
  · exact congrArg (x0 (ix2 r k) * ·) (cat4_cols x4 x3 x5 x6 _ b k j)
  · exact congrArg (x1 (ix2 r k) * ·) (cat4_cols x8 x7 x9 x10 _ b k j)
  · exact cat4_vec x11 x12 x13 x14 _ b j

/-- The first of the four column bands cut out of the joined pre-activations: the forget gate's pre-activation. -/
theorem band0_at (r : Fin 2048) (j : Fin 1024) :
    val_main_v9 (F := Ideal) x0 x1 x3 x4 x5 x6 x7 x8 x9 x10 x11 x12 x13 x14 (ix2 r j) = pre x0 x1 x4 x8 (x11 (ix1 j)) r j := by
  have e : idx_main_v9 (ix2 r j) = ix2 r (col 0 j) := funext fun a => Fin.ext (by
    match a with
    | ⟨0, _⟩ => rfl
    | ⟨1, _⟩ => show j.val = 1024 * 0 + j.val; omega)
  rw [val_main_v9_apply, e]
  exact gate_band x0 x1 x3 x4 x5 x6 x7 x8 x9 x10 x11 x12 x13 x14 0 r j

/-- The second band: the input gate. -/
theorem band1_at (r : Fin 2048) (j : Fin 1024) :
    val_main_v10 (F := Ideal) x0 x1 x3 x4 x5 x6 x7 x8 x9 x10 x11 x12 x13 x14 (ix2 r j) = pre x0 x1 x3 x7 (x12 (ix1 j)) r j := by
  have e : idx_main_v10 (ix2 r j) = ix2 r (col 1 j) := funext fun a => Fin.ext (by
    match a with
    | ⟨0, _⟩ => rfl
    | ⟨1, _⟩ => show 1024 + j.val = 1024 * 1 + j.val; omega)
  rw [val_main_v10_apply, e]
  exact gate_band x0 x1 x3 x4 x5 x6 x7 x8 x9 x10 x11 x12 x13 x14 1 r j

/-- The third band: the output gate. -/
theorem band2_at (r : Fin 2048) (j : Fin 1024) :
    val_main_v11 (F := Ideal) x0 x1 x3 x4 x5 x6 x7 x8 x9 x10 x11 x12 x13 x14 (ix2 r j) = pre x0 x1 x5 x9 (x13 (ix1 j)) r j := by
  have e : idx_main_v11 (ix2 r j) = ix2 r (col 2 j) := funext fun a => Fin.ext (by
    match a with
    | ⟨0, _⟩ => rfl
    | ⟨1, _⟩ => show 2048 + j.val = 1024 * 2 + j.val; omega)
  rw [val_main_v11_apply, e]
  exact gate_band x0 x1 x3 x4 x5 x6 x7 x8 x9 x10 x11 x12 x13 x14 2 r j

/-- The fourth band: the candidate. -/
theorem band3_at (r : Fin 2048) (j : Fin 1024) :
    val_main_v12 (F := Ideal) x0 x1 x3 x4 x5 x6 x7 x8 x9 x10 x11 x12 x13 x14 (ix2 r j) = pre x0 x1 x6 x10 (x14 (ix1 j)) r j := by
  have e : idx_main_v12 (ix2 r j) = ix2 r (col 3 j) := funext fun a => Fin.ext (by
    match a with
    | ⟨0, _⟩ => rfl
    | ⟨1, _⟩ => show 3072 + j.val = 1024 * 3 + j.val; omega)
  rw [val_main_v12_apply, e]
  exact gate_band x0 x1 x3 x4 x5 x6 x7 x8 x9 x10 x11 x12 x13 x14 3 r j

/-! ## The expanded sigmoid is the logistic function -/

/-- `1 / (1 + exp (-x))` on the first band is the logistic function of it. -/
theorem sigmoid0_at (i : S2048x1024.Idx) :
    val_main_v18 (F := Ideal) x0 x1 x3 x4 x5 x6 x7 x8 x9 x10 x11 x12 x13 x14 i = Ideal.logistic (val_main_v9 (F := Ideal) x0 x1 x3 x4 x5 x6 x7 x8 x9 x10 x11 x12 x13 x14 i) := by
  rw [val_main_v18_apply, val_main_v17_apply, val_main_cst_0_apply, val_main_v16_apply, val_main_v15_apply,
    val_main_cst_apply, val_main_v14_apply, val_main_v13_apply]
  simp only [Ideal.hostDivf_def, Ideal.addf_def, Ideal.hostUnary_exp_def, Ideal.hostNegf_def, Ideal.negf_def,
    Ideal.ofBits_def, ofBits_one]
  rfl

/-- The same on the second band. -/
theorem sigmoid1_at (i : S2048x1024.Idx) :
    val_main_v24 (F := Ideal) x0 x1 x3 x4 x5 x6 x7 x8 x9 x10 x11 x12 x13 x14 i = Ideal.logistic (val_main_v10 (F := Ideal) x0 x1 x3 x4 x5 x6 x7 x8 x9 x10 x11 x12 x13 x14 i) := by
  rw [val_main_v24_apply, val_main_v23_apply, val_main_cst_2_apply, val_main_v22_apply, val_main_v21_apply,
    val_main_cst_1_apply, val_main_v20_apply, val_main_v19_apply]
  simp only [Ideal.hostDivf_def, Ideal.addf_def, Ideal.hostUnary_exp_def, Ideal.hostNegf_def, Ideal.negf_def,
    Ideal.ofBits_def, ofBits_one]
  rfl

/-- The same on the third band. -/
theorem sigmoid2_at (i : S2048x1024.Idx) :
    val_main_v30 (F := Ideal) x0 x1 x3 x4 x5 x6 x7 x8 x9 x10 x11 x12 x13 x14 i = Ideal.logistic (val_main_v11 (F := Ideal) x0 x1 x3 x4 x5 x6 x7 x8 x9 x10 x11 x12 x13 x14 i) := by
  rw [val_main_v30_apply, val_main_v29_apply, val_main_cst_4_apply, val_main_v28_apply, val_main_v27_apply,
    val_main_cst_3_apply, val_main_v26_apply, val_main_v25_apply]
  simp only [Ideal.hostDivf_def, Ideal.addf_def, Ideal.hostUnary_exp_def, Ideal.hostNegf_def, Ideal.negf_def,
    Ideal.ofBits_def, ofBits_one]
  rfl

/-! ## The cell state and the hidden state at a row and a unit -/

/-- The new cell state: the old one times the forget gate, plus the input gate times the candidate. -/
theorem cell_at (r : Fin 2048) (j : Fin 1024) :
    val_main_v34 (F := Ideal) x0 x1 x2 x3 x4 x5 x6 x7 x8 x9 x10 x11 x12 x13 x14 (ix2 r j) = cell ⟨x0, x1, x2, x3, x4, x5, x6, x7, x8, x9, x10, x11, x12, x13, x14, x15⟩ r j := by
  rw [val_main_v34_apply, val_main_v32_apply, val_main_v33_apply, val_main_v31_apply, sigmoid0_at, sigmoid1_at,
    band0_at, band1_at, band3_at]
  simp only [Ideal.addf_def, Ideal.mulf_def, Ideal.hostUnary_tanh_def]
  rfl

/-- The new hidden state before the mask: the output gate times the hyperbolic tangent of the new cell state. -/
theorem hidden_at (r : Fin 2048) (j : Fin 1024) :
    val_main_v36 (F := Ideal) x0 x1 x2 x3 x4 x5 x6 x7 x8 x9 x10 x11 x12 x13 x14 (ix2 r j) = hidden ⟨x0, x1, x2, x3, x4, x5, x6, x7, x8, x9, x10, x11, x12, x13, x14, x15⟩ r j := by
  rw [val_main_v36_apply, val_main_v35_apply, sigmoid2_at, band2_at, cell_at x0 x1 x2 x3 x4 x5 x6 x7 x8 x9 x10 x11 x12 x13 x14 x15]
  simp only [Ideal.mulf_def, Ideal.hostUnary_tanh_def]
  rfl

end Stages

/-! ## The two results -/

/-- The reference's first result is the masked hidden state. -/
theorem h_eq (x0 x1 x2 : (⟨S2048x1024, .f32⟩ : BufTy).Contents (Elt Ideal))
    (x3 x4 x5 x6 x7 x8 x9 x10 : (⟨S1024x1024, .f32⟩ : BufTy).Contents (Elt Ideal))
    (x11 x12 x13 x14 : (⟨S1024, .f32⟩ : BufTy).Contents (Elt Ideal))
    (x15 : (⟨S2048x1x1024, .f32⟩ : BufTy).Contents (Elt Ideal)) :
    val_main_v38 (F := Ideal) x0 x1 x2 x3 x4 x5 x6 x7 x8 x9 x10 x11 x12 x13 x14 x15 = Cert.LstmSpec.hOut ⟨x0, x1, x2, x3, x4, x5, x6, x7, x8, x9, x10, x11, x12, x13, x14, x15⟩ := by
  funext i
  obtain ⟨r, u, j, rfl⟩ : ∃ (r : Fin 2048) (u : Fin 1) (j : Fin 1024), i = ix3 r u j := ⟨i 0, i 1, i 2, eq_ix3 i⟩
  have e : idx_main_v37 (ix3 r u j) = ix2 r j := funext fun a => Fin.ext (by
    match a with | ⟨0, _⟩ => rfl | ⟨1, _⟩ => rfl)
  rw [val_main_v38_apply, val_main_v37_apply, e, hidden_at x0 x1 x2 x3 x4 x5 x6 x7 x8 x9 x10 x11 x12 x13 x14 x15, hOut_apply]
  rfl

/-- The reference's second result is the new cell state. -/
theorem c_eq (x0 x1 x2 : (⟨S2048x1024, .f32⟩ : BufTy).Contents (Elt Ideal))
    (x3 x4 x5 x6 x7 x8 x9 x10 : (⟨S1024x1024, .f32⟩ : BufTy).Contents (Elt Ideal))
    (x11 x12 x13 x14 : (⟨S1024, .f32⟩ : BufTy).Contents (Elt Ideal))
    (x15 : (⟨S2048x1x1024, .f32⟩ : BufTy).Contents (Elt Ideal)) :
    val_main_v39 (F := Ideal) x0 x1 x2 x3 x4 x5 x6 x7 x8 x9 x10 x11 x12 x13 x14 = Cert.LstmSpec.cOut ⟨x0, x1, x2, x3, x4, x5, x6, x7, x8, x9, x10, x11, x12, x13, x14, x15⟩ := by
  funext i
  obtain ⟨r, u, j, rfl⟩ : ∃ (r : Fin 2048) (u : Fin 1) (j : Fin 1024), i = ix3 r u j := ⟨i 0, i 1, i 2, eq_ix3 i⟩
  have e : idx_main_v39 (ix3 r u j) = ix2 r j := funext fun a => Fin.ext (by
    match a with | ⟨0, _⟩ => rfl | ⟨1, _⟩ => rfl)
  rw [val_main_v39_apply, e, cell_at x0 x1 x2 x3 x4 x5 x6 x7 x8 x9 x10 x11 x12 x13 x14 x15, cOut_apply]

end Cert.ReferenceIdeal.RefValue

end
-- ==== Proof.lean ====
/-
  One step of an LSTM cell on 2048 rows and 1024 hidden units, computed by a pipelined kernel over eight blocks
  of 256 rows — eight separate products of a block with a 1024-by-1024 weight matrix, the four biases laid end to
  end in one row — against a reference that joins the four input weight matrices side by side, likewise the four
  recurrent ones, and takes two products with the 1024-by-4096 matrices before cutting the result into the four
  gates' column bands.  On the extended reals the two agree index by index, for every value of the inputs:
  column 1024 b + j of a joined matrix is column j of matrix b, so each band's entry is the same sum over the
  1024 inner positions as the kernel's separate product; the sums, the bias and the products are grouped the
  same way on both sides; the kernel's logistic function is by definition the reference's 1 / (1 + exp (-x));
  a change of float format is the identity; and the eight blocks tile the rows.  Nothing uses finiteness.
  The three frames: each kernel program is its host lines around one pipelined region whose body loads thirteen
  staging buffers whole and stores two; the reference is a straight line of host operations.
-/
import proofs.«169139_j23922967838797_2_alg».proof.Defs
import proofs.«169139_j23922967838797_2_alg».proof.Proof.Gen.Kernel
import proofs.«169139_j23922967838797_2_alg».proof.Proof.Gen.KernelIdeal
import proofs.«169139_j23922967838797_2_alg».proof.Proof.Gen.ReferenceIdeal
import proofs.«169139_j23922967838797_2_alg».proof.Proof.Gen.Pre_finite_inputs
import proofs.«169139_j23922967838797_2_alg».proof.Proof.Gen.ReferenceIdeal.Run
import proofs.«169139_j23922967838797_2_alg».proof.Proof.Gen.ReferenceIdeal.Read
import proofs.«169139_j23922967838797_2_alg».proof.Proof.BitsFrame
import proofs.«169139_j23922967838797_2_alg».proof.Proof.IdealValue
import proofs.«169139_j23922967838797_2_alg».proof.Proof.RefValue

noncomputable section

namespace Cert.Proof

open Idealize.ShloMosaic Idealize.SL.Sem

/-- The kernel's program as printed runs to the end, faults nowhere and leaves its arguments unchanged. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the sixteen arguments both programs end with the masked new hidden state and the new
    cell state of those arguments. -/
theorem algebraic : Cert.algebraic_KernelIdeal_ReferenceIdeal := by
  intro m ρ m' ρ' _ hagree
  refine ⟨fun c => Cert.LstmSpec.hOut (Cert.KernelIdeal.Hand.argsOf m c), fun c => Cert.LstmSpec.cOut (Cert.KernelIdeal.Hand.argsOf m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.RefValue.h_eq]
    obtain ⟨a0, a1, a2, a3, a4, a5, a6, a7, a8, a9, a10, a11, a12, a13, a14, a15⟩ := hagree c
    rw [a0, a1, a2, a3, a4, a5, a6, a7, a8, a9, a10, a11, a12, a13, a14, a15]
    rfl
  · rw [Cert.ReferenceIdeal.Read.val_main_v39_eq,
      Cert.ReferenceIdeal.RefValue.c_eq _ _ _ _ _ _ _ _ _ _ _ _ _ _ _ (m' ((c.tc : Thread Cert.ReferenceIdeal.nD Cert.ReferenceIdeal.τ).loc Cert.ReferenceIdeal.main_arg15))]
    obtain ⟨a0, a1, a2, a3, a4, a5, a6, a7, a8, a9, a10, a11, a12, a13, a14, a15⟩ := hagree c
    rw [a0, a1, a2, a3, a4, a5, a6, a7, a8, a9, a10, a11, a12, a13, a14, a15]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
